-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2051x2048 : Shape := ⟨2, ![2051, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2051x2048 : S_.BroadcastsInDim S2051x2048 (![] : Fin 0 → Fin S2051x2048.rank)
  reducesTo_S2051x2048_S_d0_1 : S2051x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024x1 .f32) (main_arg8 : FVec F S1 .f32) (main_v33 : IVec S_ 1) : IVec S_ 1 :=
  let main_v34 : FVec F S1024x1 .f32 := Host.absf main_arg7
  let main_cst_12 : FVec F S_ .f32 := constant S_ .f32 0x7F800000#32
  let main_v35 : FVec F S1024x1 .f32 := broadcastInDim S1024x1 ![] bcast_S_S1024x1 main_cst_12
  let main_v36 : IVec S1024x1 1 := cmpf .olt main_v34 main_v35
  let main_c_13 : IVec S_ 1 := constantI S_ 1 1#1
  let main_v37 : IVec S_ 1 := (fun x v => Host.reduce IntOp.andi x v reducesTo_S1024x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S2048 .f32) (main_arg5 : FVec F S2048x1024 .f32) (main_arg6 : FVec F S1024 .f32) (main_arg7 : FVec F S1024x1 .f32) (main_arg8 : FVec F S1 .f32) (main_v13 : IVec S_ 1) (main_v16 : IVec S2051x2048 1) : IVec S_ 1 :=
  let main_c_5 : IVec S_ 1 := constantI S_ 1 1#1
  let main_v17 : IVec S_ 1 := (fun x v => Host.reduce IntOp.andi x v reducesTo_S2051x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S16384x2048 .f32) (main_arg1 : FVec F S16384x2048 .f32) (main_arg2 : FVec F S16384x2048 .f32) (main_arg3 : FVec F S2051x2048 .f32) (main_arg4 : FVec F S2048 .f32) (main_arg5 : FVec F S2048x1024 .f32) (main_arg6 : FVec F S1024 .f32) (main_arg7 : FVec F S1024x1 .f32) (main_arg8 : FVec F S1 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S2051x2048 .f32 := Host.absf main_arg3
  let main_cst_4 : FVec F S_ .f32 := constant S_ .f32 0x7F800000#32
  let main_v15 : FVec F S2051x2048 .f32 := broadcastInDim S2051x2048 ![] bcast_S_S2051x2048 main_cst_4
  let main_v16 : IVec S2051x2048 1 := cmpf .olt main_v14 main_v15
  fn_part1 (F := F) main_arg4 main_arg5 main_arg6 main_arg7 main_arg8 main_v13 main_v16
-- ==== Kernel.lean ====
abbrev S16384x2048 : Shape := ⟨2, ![16384, 2048]⟩
abbrev S2051x2048 : Shape := ⟨2, ![2051, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S2048x2048 : Shape := ⟨2, ![2048, 2048]⟩
abbrev S3x2048 : Shape := ⟨2, ![3, 2048]⟩
abbrev S1x2048 : Shape := ⟨2, ![1, 2048]⟩
abbrev S_ : Shape := ⟨0, ![]⟩
abbrev S4x2048 : Shape := ⟨2, ![4, 2048]⟩
abbrev S8x2048 : Shape := ⟨2, ![8, 2048]⟩
abbrev S1x1024 : Shape := ⟨2, ![1, 1024]⟩
abbrev S1x1 : Shape := ⟨2, ![1, 1]⟩
abbrev S16384x1 : Shape := ⟨2, ![16384, 1]⟩
abbrev S256x2048 : Shape := ⟨2, ![256, 2048]⟩
abbrev S256x1 : Shape := ⟨2, ![256, 1]⟩
abbrev S256 : Shape := ⟨1, ![256]⟩
abbrev S256x4 : Shape := ⟨2, ![256, 4]⟩
abbrev S256x8 : Shape := ⟨2, ![256, 8]⟩
abbrev S256x1024 : Shape := ⟨2, ![256, 1024]⟩

abbrev nBuf : Space → Nat
  | .hbm => 22
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2051x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S2048x2048, .f32⟩
  | .hbm, ⟨10, _⟩ => ⟨S2048x2048, .bf16⟩
  | .hbm, ⟨11, _⟩ => ⟨S3x2048, .f32⟩
  | .hbm, ⟨12, _⟩ => ⟨S1x2048, .f32⟩
  | .hbm, ⟨13, _⟩ => ⟨S_, .f32⟩
  | .hbm, ⟨14, _⟩ => ⟨S4x2048, .f32⟩
  | .hbm, ⟨15, _⟩ => ⟨S8x2048, .f32⟩
  | .hbm, ⟨16, _⟩ => ⟨S8x2048, .bf16⟩
  | .hbm, ⟨17, _⟩ => ⟨S2048x1024, .bf16⟩
  | .hbm, ⟨18, _⟩ => ⟨S1x1024, .f32⟩
  | .hbm, ⟨19, _⟩ => ⟨S1x1024, .f32⟩
  | .hbm, ⟨20, _⟩ => ⟨S1x1, .f32⟩
  | .hbm, ⟨21, _⟩ => ⟨S16384x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S8x2048, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1x1, .f32⟩
  | .local _ .vmem, ⟨12, _⟩ => ⟨S256x1, .f32⟩
  | .local _ .vmem, ⟨13, _⟩ => ⟨S256x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2051x2048_S2048x2048_0_0 : S2051x2048.Slices ![0, 0] S2048x2048
  bitsLt_bf16_f32 : FTy.bits .bf16 < FTy.bits .f32
  slices_S2051x2048_S3x2048_2048_0 : S2051x2048.Slices ![2048, 0] S3x2048
  shapeCasts_S2048_S1x2048 : S2048.ShapeCasts S1x2048
  bcast_S_S4x2048 : S_.BroadcastsInDim S4x2048 (![] : Fin 0 → Fin S4x2048.rank)
  concatenates_S3x2048_S1x2048_S4x2048_S8x2048_d0 : Shape.Concatenates [S3x2048, S1x2048, S4x2048] S8x2048 0
  shapeCasts_S1024_S1x1024 : S1024.ShapeCasts S1x1024
  shapeCasts_S1024x1_S1x1024 : S1024x1.ShapeCasts S1x1024
  shapeCasts_S1_S1x1 : S1.ShapeCasts S1x1
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  concatenates_S256x1_S256x1_S256x1_S256x1_S256x4_S256x8_d1 : Shape.Concatenates [S256x1, S256x1, S256x1, S256x1, S256x4] S256x8 1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S256x2048_S2048x2048_S256x2048_1_0_0_1_n_n_wf : DotDims.WF S256x2048 S2048x2048 S256x2048 [1] [0] [0] [1] [] []
  dot_S256x8_S8x2048_S256x2048_1_0_0_1_n_n_wf : DotDims.WF S256x8 S8x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .f32 = 32 ∨ (Rect.block (s := S16384x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x2048.size a ≤ S8x2048.size a
  hwx0_4 : ∀ i : grid0.Coords, EltTy.bits .bf16 = 32 ∨ (Rect.block (s := S8x2048) S8x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .bf16 = 32 ∨ (Rect.block (s := S2048x1024) S2048x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S16384x1.size a
  hwx0_9 : ∀ i : grid0.Coords, EltTy.bits .f32 = 32 ∨ (Rect.block (s := S16384x1) S256x1.size (cc0_transform_9 i) (hinb0_9 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x8_S8x2048_S256x2048_1_0_0_1_n_n : DotDims S256x8 S8x2048 S256x2048 where
  lhsContracting := [1]
  rhsContracting := [0]
  lhsNonContracting := [0]
  rhsNonContracting := [1]
  lhsBatch := []
  rhsBatch := []
  wf := dot_S256x8_S8x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S8x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S256x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2051x2048 : Shape := ⟨2, ![2051, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S16384 : Shape := ⟨1, ![16384]⟩
abbrev S16384x1 : Shape := ⟨2, ![16384, 1]⟩
abbrev S16384x2051 : Shape := ⟨2, ![16384, 2051]⟩
abbrev S1x2048 : Shape := ⟨2, ![1, 2048]⟩
abbrev S16384x1024 : Shape := ⟨2, ![16384, 1024]⟩
abbrev S1x1024 : Shape := ⟨2, ![1, 1024]⟩
abbrev S1x1 : Shape := ⟨2, ![1, 1]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2051x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x2051, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1, .f32⟩
  | .hbm, ⟨53, _⟩ => ⟨S1x1, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call3_cst : Ref sig .tc := ⟨.hbm, 49, rfl⟩
abbrev main_call3_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  concatenates_S16384x2048_S16384x1_S16384x1_S16384x1_S16384x2051_d1 : Shape.Concatenates [S16384x2048, S16384x1, S16384x1, S16384x1] S16384x2051 1
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x2051_S2051x2048_S16384x2048_1_0_0_1_n_n_wf : DotDims.WF S16384x2051 S2051x2048 S16384x2048 [1] [0] [0] [1] [] []
  dot_S16384x2048_S2048x1024_S16384x1024_1_0_0_1_n_n_wf : DotDims.WF S16384x2048 S2048x1024 S16384x1024 [1] [0] [0] [1] [] []
  dot_S16384x1024_S1024x1_S16384x1_1_0_0_1_n_n_wf : DotDims.WF S16384x1024 S1024x1 S16384x1 [1] [0] [0] [1] [] []

variable [Facts₀]

def dot_S16384x2051_S2051x2048_S16384x2048_1_0_0_1_n_n : DotDims S16384x2051 S2051x2048 S16384x2048 where
  lhsContracting := [1]
  rhsContracting := [0]
  lhsNonContracting := [0]
  rhsNonContracting := [1]
  lhsBatch := []
  rhsBatch := []
  wf := dot_S16384x2051_S2051x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.HeadLaunchWords.lean ====
/-
  The launch of the retrieval head as a pipeline over 64 tiles of 256 rows, for `Cert.Kernel`, at any reading `F` of the floats.

  Before the region the host prepares six arrays: the top 2048 rows of W1, the 8-row block made of W1's last
  three rows, b1 as one row, and four rows of zeros, W2, and b2, Wr, br each as a row. None of these twelve
  operations writes an argument. The region then visits the 64 tiles in order; at tile `t` the three row windows hold
  rows 256·t … 256·t+255 of h, v_claim, v_doc, the six weight windows hold their whole arrays at every tile, and the body
  overwrites the whole 256×1 output tile with one value computed from those nine blocks. So the run terminates
  without a fault, every argument array ends as it started, and the result array ends at the tiles the body left.
-/
import proofs.«179185_j83528523973131_2_alg».proof.Proof.Gen.Kernel.Launch
import proofs.«179185_j83528523973131_2_alg».proof.Proof.Gen.Kernel.Skeleton
import proofs.«179185_j83528523973131_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the twelve host operations. -/
abbrev entry (c : Dev nD) (b : Ref sig .tc) : Buf (Elt F) ((c : Thread nD τ).loc b) := StableHlo.after hostOps0 (fun b => m (c, b)) b

/-- No host operation leaves its result buffer at unchosen contents. -/
theorem hostOps0_fresh : (hostOps0 : List (HloOp τ sig (Elt F))).Forall fun op => op.fresh = ∅ := by
  simp only [List.Forall]; repeat' constructor

/-- `main` is the host operations followed by the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- Each host operation writes its own result buffer, never argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-! ## The windows' tiles -/

/-- Window `w`'s block at tile `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's staging buffer holds its tile at every point, whether the pipeline fetched it there or kept it
    (a kept window's block index has not moved), for any proof data over the entry contents whose body leaves the tile in place. -/
theorem holds0_of {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- Input window 1's staging buffer holds its tile at every point, whether the pipeline fetched it there or kept it
    (a kept window's block index has not moved), for any proof data over the entry contents whose body leaves the tile in place. -/
theorem holds1_of {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- Input window 2's staging buffer holds its tile at every point, whether the pipeline fetched it there or kept it
    (a kept window's block index has not moved), for any proof data over the entry contents whose body leaves the tile in place. -/
theorem holds2_of {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- Input window 3's staging buffer holds its tile at every point, whether the pipeline fetched it there or kept it
    (a kept window's block index has not moved), for any proof data over the entry contents whose body leaves the tile in place. -/
theorem holds3_of {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
/-- Input window 4's staging buffer holds its tile at every point, whether the pipeline fetched it there or kept it
    (a kept window's block index has not moved), for any proof data over the entry contents whose body leaves the tile in place. -/
theorem holds4_of {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)
/-- Input window 5's staging buffer holds its tile at every point, whether the pipeline fetched it there or kept it
    (a kept window's block index has not moved), for any proof data over the entry contents whose body leaves the tile in place. -/
theorem holds5_of {c : Dev nD} (dat : Dat τ (Elt F) Unit ℕ (UR sig nD τ) ℕ cfg0 c) (hA : dat.A 5 = entry m c (Pipeline.arrRef spec0 5))
    (hafter : ∀ t, dat.after 5 t = tile m c 5 t) (t : Fin cfg0.N) (d) : dat.before 5 t d = tile m c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)
/-- Input window 6's staging buffer holds its tile at every point, whether the pipeline fetched it there or kept it
    (a kept window's block index has not moved), for any proof data over the entry contents whose body leaves the tile in place. -/
theorem holds6_of {c : Dev nD} (dat : Dat τ (Elt F) Unit ℕ (UR sig nD τ) ℕ cfg0 c) (hA : dat.A 6 = entry m c (Pipeline.arrRef spec0 6))
    (hafter : ∀ t, dat.after 6 t = tile m c 6 t) (t : Fin cfg0.N) (d) : dat.before 6 t d = tile m c 6 t :=
  (dat.before_in_eq_fetched 6 rfl (fun _ => rfl) (fun _ _ _ => rfl) (fun t => by rw [hafter]; unfold Dat.blockOf tile; rw [hA]; try rfl) t d).trans
    (by unfold Dat.fetched Dat.blockOf tile; rw [hA]; try rfl)
/-- Input window 7's staging buffer holds its tile at every point, whether the pipeline fetched it there or kept it
    (a kept window's block index has not moved), for any proof data over the entry contents whose body leaves the tile in place. -/
theorem holds7_of {c : Dev nD} (dat : Dat τ (Elt F) Unit ℕ (UR sig nD τ) ℕ cfg0 c) (hA : dat.A 7 = entry m c (Pipeline.arrRef spec0 7))
    (hafter : ∀ t, dat.after 7 t = tile m c 7 t) (t : Fin cfg0.N) (d) : dat.before 7 t d = tile m c 7 t :=
  (dat.before_in_eq_fetched 7 rfl (fun _ => rfl) (fun _ _ _ => rfl) (fun t => by rw [hafter]; unfold Dat.blockOf tile; rw [hA]; try rfl) t d).trans
    (by unfold Dat.fetched Dat.blockOf tile; rw [hA]; try rfl)
/-- Input window 8's staging buffer holds its tile at every point, whether the pipeline fetched it there or kept it
    (a kept window's block index has not moved), for any proof data over the entry contents whose body leaves the tile in place. -/
theorem holds8_of {c : Dev nD} (dat : Dat τ (Elt F) Unit ℕ (UR sig nD τ) ℕ cfg0 c) (hA : dat.A 8 = entry m c (Pipeline.arrRef spec0 8))
    (hafter : ∀ t, dat.after 8 t = tile m c 8 t) (t : Fin cfg0.N) (d) : dat.before 8 t d = tile m c 8 t :=
  (dat.before_in_eq_fetched 8 rfl (fun _ => rfl) (fun _ _ _ => rfl) (fun t => by rw [hafter]; unfold Dat.blockOf tile; rw [hA]; try rfl) t d).trans
    (by unfold Dat.fetched Dat.blockOf tile; rw [hA]; try rfl)

/-! ## Arguments unchanged, from any run of the pipeline -/

/-- A run ending with every window's array at what the proof data computes, and every other buffer as the region found it,
    ends with the nine arguments as launched: h, v_claim, v_doc are input windows' arrays (an input window's array is never
    written), the other six are buffers no window stages. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c)⟩) h

/-! ## The body's accesses: every load and the one store take a whole buffer -/

abbrev rRows : Rect S256x2048 := Rect.unit (s := S256x2048) ![0, 0] S256x2048.size inb_S256x2048_S256x2048_0_0
abbrev rW1 : Rect S2048x2048 := Rect.unit (s := S2048x2048) ![0, 0] S2048x2048.size inb_S2048x2048_S2048x2048_0_0
abbrev rExtra : Rect S8x2048 := Rect.unit (s := S8x2048) ![0, 0] S8x2048.size inb_S8x2048_S8x2048_0_0
abbrev rW2 : Rect S2048x1024 := Rect.unit (s := S2048x1024) ![0, 0] S2048x1024.size inb_S2048x1024_S2048x1024_0_0
abbrev rRow : Rect S1x1024 := Rect.unit (s := S1x1024) ![0, 0] S1x1024.size inb_S1x1024_S1x1024_0_0
abbrev rOne : Rect S1x1 := Rect.unit (s := S1x1) ![0, 0] S1x1.size inb_S1x1_S1x1_0_0
abbrev rOut : Rect S256x1 := Rect.unit (s := S256x1) ![0, 0] S256x1.size inb_S256x1_S256x1_0_0

/-- The hidden layer before its rectifier, on one tile: from the tiles of h, v_claim, v_doc, the top of W1 and the 8-row block. -/
def hiddenPre (x0 x1 x2 : Vec F S256x2048 .f32) (x3 : Vec F S2048x2048 .bf16) (x4 : Vec F S8x2048 .bf16) : FVec F S256x2048 .f32 :=
  k0_pay2 (View.ld x0 rRows) (View.ld x1 rRows) (View.ld x2 rRows) (View.ld x3 rW1) (View.ld x4 rExtra)

/-- What the body leaves in the output tile: its one store, of the sigmoid of the head over the second layer of the hidden layer. -/
def headOut (x0 x1 x2 : Vec F S256x2048 .f32) (x3 : Vec F S2048x2048 .bf16) (x4 : Vec F S8x2048 .bf16) (x5 : Vec F S2048x1024 .bf16)
    (x6 x7 : Vec F S1x1024 .f32) (x8 : Vec F S1x1 .f32) : Vec F S256x1 .f32 :=
  View.canon [⟨rOut, k0_pay1 (hiddenPre x0 x1 x2 x3 x4) (k0_pay3 (F := F)) (View.ld x5 rW2) (View.ld x6 rRow) (View.ld x7 rRow) (View.ld x8 rOne)⟩]

/-- The one store covers the output tile. -/
theorem cover_out (p0 : Vec F S256x1 .f32) (y : S256x1.Idx) :
    ∃ pc ∈ ([⟨rOut, p0⟩] : List (View.Piece (Elt F) S256x1 .f32)), y ∈ pc.1.set :=
  View.cover_of_tiled [⟨rOut, p0⟩] S256x1.size (by rfl) y

/-! ## The body's triple -/

set_option maxHeartbeats 4000000 in
/-- On whole staging buffers, the nine inputs' at contents `x0 … x8` and the output's at anything, the body runs without a
    fault to a state holding the inputs' as they were and the output's at `headOut` of the inputs'. -/
theorem sound_kernel (c : Dev nD) (E : Set ℕ) (i : grid0.Coords)
    (arg1 : Memref sig .tc .vmem S256x2048 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S2048x2048 .bf16) (harg4 : arg4.IsWhole)
    (arg5 : Memref sig .tc .vmem S8x2048 .bf16) (harg5 : arg5.IsWhole) (arg6 : Memref sig .tc .vmem S2048x1024 .bf16) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1 .f32) (harg9 : arg9.IsWhole) (arg10 : Memref sig .tc .vmem S256x1 .f32) (harg10 : arg10.IsWhole)
    (x0 x1 x2 : Vec F S256x2048 .f32) (x3 : Vec F S2048x2048 .bf16) (x4 : Vec F S8x2048 .bf16) (x5 : Vec F S2048x1024 .bf16)
    (x6 x7 : Vec F S1x1024 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (headOut x0 x1 x2 x3 x4 x5 x6 x7 x8)) -∗ K ⟨⟩))
      ⊢ wp frame (wpE (defs₀ (F := F)) Variants.none c none) E (cc0__doc_head_kernel i arg1 harg1 arg2 harg2 arg3 harg3 arg4 harg4 arg5 harg5 arg6 harg6 arg7 harg7 arg8 harg8 arg9 harg9 arg10 harg10) K := by
  simp only [cc0__doc_head_kernel_eq_skeleton]; unfold cc0__doc_head_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

/-! ## The pipeline's proof data -/

/-- On core `c`: the arrays as the region finds them; after the body at tile `t` each input's buffer at its tile and the
    output's at `headOut` of the nine input tiles; nothing else is touched, nothing is owed. -/
def dats (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => tile m c 6 t
    | ⟨7, _⟩ => tile m c 7 t
    | ⟨8, _⟩ => tile m c 8 t
    | ⟨9, _⟩ => headOut (tile m c 0 t) (tile m c 1 t) (tile m c 2 t) (tile m c 3 t) (tile m c 4 t) (tile m c 5 t) (tile m c 6 t) (tile m c 7 t) (tile m c 8 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after_0 (c : Dev nD) (t : Fin cfg0.N) : (dats m 0 c).after 0 t = tile m c 0 t := by dsimp only [dats]
theorem after_1 (c : Dev nD) (t : Fin cfg0.N) : (dats m 0 c).after 1 t = tile m c 1 t := by dsimp only [dats]
theorem after_2 (c : Dev nD) (t : Fin cfg0.N) : (dats m 0 c).after 2 t = tile m c 2 t := by dsimp only [dats]
theorem after_3 (c : Dev nD) (t : Fin cfg0.N) : (dats m 0 c).after 3 t = tile m c 3 t := by dsimp only [dats]
theorem after_4 (c : Dev nD) (t : Fin cfg0.N) : (dats m 0 c).after 4 t = tile m c 4 t := by dsimp only [dats]
theorem after_5 (c : Dev nD) (t : Fin cfg0.N) : (dats m 0 c).after 5 t = tile m c 5 t := by dsimp only [dats]
theorem after_6 (c : Dev nD) (t : Fin cfg0.N) : (dats m 0 c).after 6 t = tile m c 6 t := by dsimp only [dats]
theorem after_7 (c : Dev nD) (t : Fin cfg0.N) : (dats m 0 c).after 7 t = tile m c 7 t := by dsimp only [dats]
theorem after_8 (c : Dev nD) (t : Fin cfg0.N) : (dats m 0 c).after 8 t = tile m c 8 t := by dsimp only [dats]
theorem after_9 (c : Dev nD) (t : Fin cfg0.N) : (dats m 0 c).after 9 t
    = headOut (tile m c 0 t) (tile m c 1 t) (tile m c 2 t) (tile m c 3 t) (tile m c 4 t) (tile m c 5 t) (tile m c 6 t) (tile m c 7 t) (tile m c 8 t) := by dsimp only [dats]

theorem holds0 (c : Dev nD) (t : Fin cfg0.N) (d) : (dats m 0 c).before 0 t d = tile m c 0 t :=
  holds0_of m (dats m 0 c) (A_eq m c 0) (after_0 m c) t d
theorem holds1 (c : Dev nD) (t : Fin cfg0.N) (d) : (dats m 0 c).before 1 t d = tile m c 1 t :=
  holds1_of m (dats m 0 c) (A_eq m c 1) (after_1 m c) t d
theorem holds2 (c : Dev nD) (t : Fin cfg0.N) (d) : (dats m 0 c).before 2 t d = tile m c 2 t :=
  holds2_of m (dats m 0 c) (A_eq m c 2) (after_2 m c) t d
theorem holds3 (c : Dev nD) (t : Fin cfg0.N) (d) : (dats m 0 c).before 3 t d = tile m c 3 t :=
  holds3_of m (dats m 0 c) (A_eq m c 3) (after_3 m c) t d
theorem holds4 (c : Dev nD) (t : Fin cfg0.N) (d) : (dats m 0 c).before 4 t d = tile m c 4 t :=
  holds4_of m (dats m 0 c) (A_eq m c 4) (after_4 m c) t d
theorem holds5 (c : Dev nD) (t : Fin cfg0.N) (d) : (dats m 0 c).before 5 t d = tile m c 5 t :=
  holds5_of m (dats m 0 c) (A_eq m c 5) (after_5 m c) t d
theorem holds6 (c : Dev nD) (t : Fin cfg0.N) (d) : (dats m 0 c).before 6 t d = tile m c 6 t :=
  holds6_of m (dats m 0 c) (A_eq m c 6) (after_6 m c) t d
theorem holds7 (c : Dev nD) (t : Fin cfg0.N) (d) : (dats m 0 c).before 7 t d = tile m c 7 t :=
  holds7_of m (dats m 0 c) (A_eq m c 7) (after_7 m c) t d
theorem holds8 (c : Dev nD) (t : Fin cfg0.N) (d) : (dats m 0 c).before 8 t d = tile m c 8 t :=
  holds8_of m (dats m 0 c) (A_eq m c 8) (after_8 m c) t d

/-! ## The body at a tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any tile the input buffers hold their tiles, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [holds0, holds1, holds2, holds3, holds4, holds5, holds6, holds7, holds8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (tile m c 0 t) (tile m c 1 t) (tile m c 2 t) (tile m c 3 t) (tile m c 4 t) (tile m c 5 t) (tile m c 6 t) (tile m c 7 t) (tile m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of `main` terminates without a fault, with every
    window's array at what the tiles' write-backs leave and every other buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- The program runs to the end and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.HeadLaunchIdeal.lean ====
/-
  The launch of the retrieval head as a pipeline over 64 tiles of 256 rows, for `Cert.KernelIdeal`, at any reading `F` of the floats.

  Before the region the host prepares six arrays: the top 2048 rows of W1, the 8-row block made of W1's last
  three rows, b1 as one row, and four rows of zeros, W2, and b2, Wr, br each as a row. None of these twelve
  operations writes an argument. The region then visits the 64 tiles in order; at tile `t` the three row windows hold
  rows 256·t … 256·t+255 of h, v_claim, v_doc, the six weight windows hold their whole arrays at every tile, and the body
  overwrites the whole 256×1 output tile with one value computed from those nine blocks. So the run terminates
  without a fault, every argument array ends as it started, and the result array ends at the tiles the body left.
-/
import proofs.«179185_j83528523973131_2_alg».proof.Proof.Gen.KernelIdeal.Launch
import proofs.«179185_j83528523973131_2_alg».proof.Proof.Gen.KernelIdeal.Skeleton
import proofs.«179185_j83528523973131_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the twelve host operations. -/
abbrev entry (c : Dev nD) (b : Ref sig .tc) : Buf (Elt F) ((c : Thread nD τ).loc b) := StableHlo.after hostOps0 (fun b => m (c, b)) b

/-- No host operation leaves its result buffer at unchosen contents. -/
theorem hostOps0_fresh : (hostOps0 : List (HloOp τ sig (Elt F))).Forall fun op => op.fresh = ∅ := by
  simp only [List.Forall]; repeat' constructor

/-- `main` is the host operations followed by the region. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- Each host operation writes its own result buffer, never argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- Each host operation writes its own result buffer, never argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-! ## The windows' tiles -/

/-- Window `w`'s block at tile `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's staging buffer holds its tile at every point, whether the pipeline fetched it there or kept it
    (a kept window's block index has not moved), for any proof data over the entry contents whose body leaves the tile in place. -/
theorem holds0_of {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
/-- Input window 1's staging buffer holds its tile at every point, whether the pipeline fetched it there or kept it
    (a kept window's block index has not moved), for any proof data over the entry contents whose body leaves the tile in place. -/
theorem holds1_of {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
/-- Input window 2's staging buffer holds its tile at every point, whether the pipeline fetched it there or kept it
    (a kept window's block index has not moved), for any proof data over the entry contents whose body leaves the tile in place. -/
theorem holds2_of {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
/-- Input window 3's staging buffer holds its tile at every point, whether the pipeline fetched it there or kept it
    (a kept window's block index has not moved), for any proof data over the entry contents whose body leaves the tile in place. -/
theorem holds3_of {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
/-- Input window 4's staging buffer holds its tile at every point, whether the pipeline fetched it there or kept it
    (a kept window's block index has not moved), for any proof data over the entry contents whose body leaves the tile in place. -/
theorem holds4_of {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)
/-- Input window 5's staging buffer holds its tile at every point, whether the pipeline fetched it there or kept it
    (a kept window's block index has not moved), for any proof data over the entry contents whose body leaves the tile in place. -/
theorem holds5_of {c : Dev nD} (dat : Dat τ (Elt F) Unit ℕ (UR sig nD τ) ℕ cfg0 c) (hA : dat.A 5 = entry m c (Pipeline.arrRef spec0 5))
    (hafter : ∀ t, dat.after 5 t = tile m c 5 t) (t : Fin cfg0.N) (d) : dat.before 5 t d = tile m c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)
/-- Input window 6's staging buffer holds its tile at every point, whether the pipeline fetched it there or kept it
    (a kept window's block index has not moved), for any proof data over the entry contents whose body leaves the tile in place. -/
theorem holds6_of {c : Dev nD} (dat : Dat τ (Elt F) Unit ℕ (UR sig nD τ) ℕ cfg0 c) (hA : dat.A 6 = entry m c (Pipeline.arrRef spec0 6))
    (hafter : ∀ t, dat.after 6 t = tile m c 6 t) (t : Fin cfg0.N) (d) : dat.before 6 t d = tile m c 6 t :=
  (dat.before_in_eq_fetched 6 rfl (fun _ => rfl) (fun _ _ _ => rfl) (fun t => by rw [hafter]; unfold Dat.blockOf tile; rw [hA]; try rfl) t d).trans
    (by unfold Dat.fetched Dat.blockOf tile; rw [hA]; try rfl)
/-- Input window 7's staging buffer holds its tile at every point, whether the pipeline fetched it there or kept it
    (a kept window's block index has not moved), for any proof data over the entry contents whose body leaves the tile in place. -/
theorem holds7_of {c : Dev nD} (dat : Dat τ (Elt F) Unit ℕ (UR sig nD τ) ℕ cfg0 c) (hA : dat.A 7 = entry m c (Pipeline.arrRef spec0 7))
    (hafter : ∀ t, dat.after 7 t = tile m c 7 t) (t : Fin cfg0.N) (d) : dat.before 7 t d = tile m c 7 t :=
  (dat.before_in_eq_fetched 7 rfl (fun _ => rfl) (fun _ _ _ => rfl) (fun t => by rw [hafter]; unfold Dat.blockOf tile; rw [hA]; try rfl) t d).trans
    (by unfold Dat.fetched Dat.blockOf tile; rw [hA]; try rfl)
/-- Input window 8's staging buffer holds its tile at every point, whether the pipeline fetched it there or kept it
    (a kept window's block index has not moved), for any proof data over the entry contents whose body leaves the tile in place. -/
theorem holds8_of {c : Dev nD} (dat : Dat τ (Elt F) Unit ℕ (UR sig nD τ) ℕ cfg0 c) (hA : dat.A 8 = entry m c (Pipeline.arrRef spec0 8))
    (hafter : ∀ t, dat.after 8 t = tile m c 8 t) (t : Fin cfg0.N) (d) : dat.before 8 t d = tile m c 8 t :=
  (dat.before_in_eq_fetched 8 rfl (fun _ => rfl) (fun _ _ _ => rfl) (fun t => by rw [hafter]; unfold Dat.blockOf tile; rw [hA]; try rfl) t d).trans
    (by unfold Dat.fetched Dat.blockOf tile; rw [hA]; try rfl)

/-! ## Arguments unchanged, from any run of the pipeline -/

/-- A run ending with every window's array at what the proof data computes, and every other buffer as the region found it,
    ends with the nine arguments as launched: h, v_claim, v_doc are input windows' arrays (an input window's array is never
    written), the other six are buffers no window stages. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c)⟩) h

/-! ## The body's accesses: every load and the one store take a whole buffer -/

abbrev rRows : Rect S256x2048 := Rect.unit (s := S256x2048) ![0, 0] S256x2048.size inb_S256x2048_S256x2048_0_0
abbrev rW1 : Rect S2048x2048 := Rect.unit (s := S2048x2048) ![0, 0] S2048x2048.size inb_S2048x2048_S2048x2048_0_0
abbrev rExtra : Rect S8x2048 := Rect.unit (s := S8x2048) ![0, 0] S8x2048.size inb_S8x2048_S8x2048_0_0
abbrev rW2 : Rect S2048x1024 := Rect.unit (s := S2048x1024) ![0, 0] S2048x1024.size inb_S2048x1024_S2048x1024_0_0
abbrev rRow : Rect S1x1024 := Rect.unit (s := S1x1024) ![0, 0] S1x1024.size inb_S1x1024_S1x1024_0_0
abbrev rOne : Rect S1x1 := Rect.unit (s := S1x1) ![0, 0] S1x1.size inb_S1x1_S1x1_0_0
abbrev rOut : Rect S256x1 := Rect.unit (s := S256x1) ![0, 0] S256x1.size inb_S256x1_S256x1_0_0

/-- The hidden layer before its rectifier, on one tile: from the tiles of h, v_claim, v_doc, the top of W1 and the 8-row block. -/
def hiddenPre (x0 x1 x2 : Vec F S256x2048 .f32) (x3 : Vec F S2048x2048 .bf16) (x4 : Vec F S8x2048 .bf16) : FVec F S256x2048 .f32 :=
  k0_pay2 (View.ld x0 rRows) (View.ld x1 rRows) (View.ld x2 rRows) (View.ld x3 rW1) (View.ld x4 rExtra)

/-- What the body leaves in the output tile: its one store, of the sigmoid of the head over the second layer of the hidden layer. -/
def headOut (x0 x1 x2 : Vec F S256x2048 .f32) (x3 : Vec F S2048x2048 .bf16) (x4 : Vec F S8x2048 .bf16) (x5 : Vec F S2048x1024 .bf16)
    (x6 x7 : Vec F S1x1024 .f32) (x8 : Vec F S1x1 .f32) : Vec F S256x1 .f32 :=
  View.canon [⟨rOut, k0_pay1 (hiddenPre x0 x1 x2 x3 x4) (k0_pay3 (F := F)) (View.ld x5 rW2) (View.ld x6 rRow) (View.ld x7 rRow) (View.ld x8 rOne)⟩]

/-- The one store covers the output tile. -/
theorem cover_out (p0 : Vec F S256x1 .f32) (y : S256x1.Idx) :
    ∃ pc ∈ ([⟨rOut, p0⟩] : List (View.Piece (Elt F) S256x1 .f32)), y ∈ pc.1.set :=
  View.cover_of_tiled [⟨rOut, p0⟩] S256x1.size (by rfl) y

/-! ## The body's triple -/

set_option maxHeartbeats 4000000 in
/-- On whole staging buffers, the nine inputs' at contents `x0 … x8` and the output's at anything, the body runs without a
    fault to a state holding the inputs' as they were and the output's at `headOut` of the inputs'. -/
theorem sound_kernel (c : Dev nD) (E : Set ℕ) (i : grid0.Coords)
    (arg1 : Memref sig .tc .vmem S256x2048 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S2048x2048 .bf16) (harg4 : arg4.IsWhole)
    (arg5 : Memref sig .tc .vmem S8x2048 .bf16) (harg5 : arg5.IsWhole) (arg6 : Memref sig .tc .vmem S2048x1024 .bf16) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1 .f32) (harg9 : arg9.IsWhole) (arg10 : Memref sig .tc .vmem S256x1 .f32) (harg10 : arg10.IsWhole)
    (x0 x1 x2 : Vec F S256x2048 .f32) (x3 : Vec F S2048x2048 .bf16) (x4 : Vec F S8x2048 .bf16) (x5 : Vec F S2048x1024 .bf16)
    (x6 x7 : Vec F S1x1024 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (headOut x0 x1 x2 x3 x4 x5 x6 x7 x8)) -∗ K ⟨⟩))
      ⊢ wp frame (wpE (defs₀ (F := F)) Variants.none c none) E (cc0__doc_head_kernel i arg1 harg1 arg2 harg2 arg3 harg3 arg4 harg4 arg5 harg5 arg6 harg6 arg7 harg7 arg8 harg8 arg9 harg9 arg10 harg10) K := by
  simp only [cc0__doc_head_kernel_eq_skeleton]; unfold cc0__doc_head_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

/-! ## The pipeline's proof data -/

/-- On core `c`: the arrays as the region finds them; after the body at tile `t` each input's buffer at its tile and the
    output's at `headOut` of the nine input tiles; nothing else is touched, nothing is owed. -/
def dats (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => tile m c 6 t
    | ⟨7, _⟩ => tile m c 7 t
    | ⟨8, _⟩ => tile m c 8 t
    | ⟨9, _⟩ => headOut (tile m c 0 t) (tile m c 1 t) (tile m c 2 t) (tile m c 3 t) (tile m c 4 t) (tile m c 5 t) (tile m c 6 t) (tile m c 7 t) (tile m c 8 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after_0 (c : Dev nD) (t : Fin cfg0.N) : (dats m 0 c).after 0 t = tile m c 0 t := by dsimp only [dats]
theorem after_1 (c : Dev nD) (t : Fin cfg0.N) : (dats m 0 c).after 1 t = tile m c 1 t := by dsimp only [dats]
theorem after_2 (c : Dev nD) (t : Fin cfg0.N) : (dats m 0 c).after 2 t = tile m c 2 t := by dsimp only [dats]
theorem after_3 (c : Dev nD) (t : Fin cfg0.N) : (dats m 0 c).after 3 t = tile m c 3 t := by dsimp only [dats]
theorem after_4 (c : Dev nD) (t : Fin cfg0.N) : (dats m 0 c).after 4 t = tile m c 4 t := by dsimp only [dats]
theorem after_5 (c : Dev nD) (t : Fin cfg0.N) : (dats m 0 c).after 5 t = tile m c 5 t := by dsimp only [dats]
theorem after_6 (c : Dev nD) (t : Fin cfg0.N) : (dats m 0 c).after 6 t = tile m c 6 t := by dsimp only [dats]
theorem after_7 (c : Dev nD) (t : Fin cfg0.N) : (dats m 0 c).after 7 t = tile m c 7 t := by dsimp only [dats]
theorem after_8 (c : Dev nD) (t : Fin cfg0.N) : (dats m 0 c).after 8 t = tile m c 8 t := by dsimp only [dats]
theorem after_9 (c : Dev nD) (t : Fin cfg0.N) : (dats m 0 c).after 9 t
    = headOut (tile m c 0 t) (tile m c 1 t) (tile m c 2 t) (tile m c 3 t) (tile m c 4 t) (tile m c 5 t) (tile m c 6 t) (tile m c 7 t) (tile m c 8 t) := by dsimp only [dats]

theorem holds0 (c : Dev nD) (t : Fin cfg0.N) (d) : (dats m 0 c).before 0 t d = tile m c 0 t :=
  holds0_of m (dats m 0 c) (A_eq m c 0) (after_0 m c) t d
theorem holds1 (c : Dev nD) (t : Fin cfg0.N) (d) : (dats m 0 c).before 1 t d = tile m c 1 t :=
  holds1_of m (dats m 0 c) (A_eq m c 1) (after_1 m c) t d
theorem holds2 (c : Dev nD) (t : Fin cfg0.N) (d) : (dats m 0 c).before 2 t d = tile m c 2 t :=
  holds2_of m (dats m 0 c) (A_eq m c 2) (after_2 m c) t d
theorem holds3 (c : Dev nD) (t : Fin cfg0.N) (d) : (dats m 0 c).before 3 t d = tile m c 3 t :=
  holds3_of m (dats m 0 c) (A_eq m c 3) (after_3 m c) t d
theorem holds4 (c : Dev nD) (t : Fin cfg0.N) (d) : (dats m 0 c).before 4 t d = tile m c 4 t :=
  holds4_of m (dats m 0 c) (A_eq m c 4) (after_4 m c) t d
theorem holds5 (c : Dev nD) (t : Fin cfg0.N) (d) : (dats m 0 c).before 5 t d = tile m c 5 t :=
  holds5_of m (dats m 0 c) (A_eq m c 5) (after_5 m c) t d
theorem holds6 (c : Dev nD) (t : Fin cfg0.N) (d) : (dats m 0 c).before 6 t d = tile m c 6 t :=
  holds6_of m (dats m 0 c) (A_eq m c 6) (after_6 m c) t d
theorem holds7 (c : Dev nD) (t : Fin cfg0.N) (d) : (dats m 0 c).before 7 t d = tile m c 7 t :=
  holds7_of m (dats m 0 c) (A_eq m c 7) (after_7 m c) t d
theorem holds8 (c : Dev nD) (t : Fin cfg0.N) (d) : (dats m 0 c).before 8 t d = tile m c 8 t :=
  holds8_of m (dats m 0 c) (A_eq m c 8) (after_8 m c) t d

/-! ## The body at a tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any tile the input buffers hold their tiles, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [holds0, holds1, holds2, holds3, holds4, holds5, holds6, holds7, holds8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (tile m c 0 t) (tile m c 1 t) (tile m c 2 t) (tile m c 3 t) (tile m c 4 t) (tile m c 5 t) (tile m c 6 t) (tile m c 7 t) (tile m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of `main` terminates without a fault, with every
    window's array at what the tiles' write-backs leave and every other buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- The program runs to the end and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«179185_j83528523973131_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.HeadSpec.lean ====
/-
  THE RETRIEVAL HEAD ON ONE ROW, at the extended reals.

  From a row `h` of 2048 numbers and two rows `vc`, `vd` of 2048 numbers each:
    len v      = max (sqrt (∑ k, v k · v k)) ε                      the clamped Euclidean length
    dir v k    = v k / len v                                         the direction
    align      = ∑ k, dir vc k · dir vd k                            the cosine
    diverge    = 1 − align,   tension = diverge · diverge
  then a dense layer with a rectifier over the 2051 numbers `h, align, diverge, tension`, a second dense layer with a
  rectifier down to 1024 numbers, and the sigmoid of their product with one weight column plus a bias.

  The first layer is written in two groupings.  `hiddenJoined` takes the 2051 numbers side by side through one layer
  with weights `W1` (2051 rows) and bias `b1`.  `hiddenSplit` adds the product of `h` with the top 2048 rows to the
  product of the eight numbers `align, diverge, tension, 1, 0, 0, 0, 0` with an 8-row block; when that block is `W1`'s
  last three rows, then `b1`, then four rows of zeros, the two agree on every extended real: a finite sum is regrouped,
  `1 · x = x`, `0 · 0 = 0`, and addition of extended reals is commutative and associative (`hiddenSplit_eq`).  Nothing
  needs to be finite.
-/
import proofs.«179185_j83528523973131_2_alg».proof.Proof.LibDenseRow
import proofs.«179185_j83528523973131_2_alg».proof.Proof.LibRowBias

noncomputable section

open scoped BigOperators

namespace Cert.HeadSpec

open Idealize.ShloMosaic Cert.DenseRow Cert.RowBias

/-- The clamp of a length: the single-precision word nearest 1e-12. -/
def eps : EReal := Ideal.ofBits .f32 0x2B8CBCCC#32
/-- The single-precision word of 1.0. -/
def one : EReal := Ideal.ofBits .f32 0x3F800000#32

/-- The clamped Euclidean length of a row. -/
def len (v : Fin 2048 → EReal) : EReal := max (Ideal.sqrt (∑ k, v k * v k)) eps
/-- The row divided by its clamped length. -/
def dir (v : Fin 2048 → EReal) (k : Fin 2048) : EReal := Ideal.div (v k) (len v)
/-- The cosine of two rows. -/
def align (vc vd : Fin 2048 → EReal) : EReal := ∑ k, dir vc k * dir vd k
def diverge (vc vd : Fin 2048 → EReal) : EReal := one - align vc vd
def tension (vc vd : Fin 2048 → EReal) : EReal := diverge vc vd * diverge vc vd

/-- The three derived features, in order. -/
def feats (vc vd : Fin 2048 → EReal) : Fin 3 → EReal := ![align vc vd, diverge vc vd, tension vc vd]

/-- The eight numbers the split first layer multiplies with its 8-row block. -/
def pad8 (vc vd : Fin 2048 → EReal) : Fin 8 → EReal := ![align vc vd, diverge vc vd, tension vc vd, one, zf, zf, zf, zf]

/-- The first layer, the 2051 numbers through one layer. -/
def hiddenJoined (h vc vd : Fin 2048 → EReal) (W1 : Fin 2051 → Fin 2048 → EReal) (b1 : Fin 2048 → EReal) : Fin 2048 → EReal :=
  act zf (layer (cat (A := 2048) (B := 3) (C := 2051) rfl h (feats vc vd)) W1 b1)

/-- The first layer, split: `h` against the top rows plus the eight numbers against an 8-row block. -/
def hiddenSplit (h vc vd : Fin 2048 → EReal) (Wtop : Fin 2048 → Fin 2048 → EReal) (E : Fin 8 → Fin 2048 → EReal) : Fin 2048 → EReal :=
  fun c => max ((∑ k, h k * Wtop k c) + ∑ j, pad8 vc vd j * E j c) zf

/-- The second layer with its rectifier, then the sigmoid of the product with the weight column plus the bias. -/
def out (x : Fin 2048 → EReal) (W2 : Fin 2048 → Fin 1024 → EReal) (b2 : Fin 1024 → EReal) (wr : Fin 1024 → EReal) (br : EReal) : EReal :=
  Ideal.logistic ((∑ j, act zf (layer x W2 b2) j * wr j) + br)

/-- The head on one row, first layer joined. -/
def G (h vc vd : Fin 2048 → EReal) (W1 : Fin 2051 → Fin 2048 → EReal) (b1 : Fin 2048 → EReal)
    (W2 : Fin 2048 → Fin 1024 → EReal) (b2 : Fin 1024 → EReal) (wr : Fin 1024 → EReal) (br : EReal) : EReal :=
  out (hiddenJoined h vc vd W1 b1) W2 b2 wr br

/-- The head on one row, first layer split. -/
def Gk (h vc vd : Fin 2048 → EReal) (Wtop : Fin 2048 → Fin 2048 → EReal) (E : Fin 8 → Fin 2048 → EReal)
    (W2 : Fin 2048 → Fin 1024 → EReal) (b2 : Fin 1024 → EReal) (wr : Fin 1024 → EReal) (br : EReal) : EReal :=
  out (hiddenSplit h vc vd Wtop E) W2 b2 wr br

end Cert.HeadSpec

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.HeadRegroup.lean ====
/-
  THE FIRST LAYER, REGROUPED.

  The joined first layer sums 2051 products `x k · W1 k c`, where `x` is the row `h` followed by the cosine, the
  divergence and the tension, and then adds `b1 c`.  The split first layer sums the first 2048 of those products, and
  separately the eight products of `align, diverge, tension, 1, 0, 0, 0, 0` with the rows `W1 2048`, `W1 2049`,
  `W1 2050`, `b1`, `0`, `0`, `0`, `0`.  The last 2051 − 2048 = 3 terms of the long sum are the first three of the
  eight; the fourth is `1 · b1 c = b1 c`; the other four are `0 · 0 = 0`.  Addition of extended reals is commutative
  and associative, so the two totals agree, whatever the entries are: nothing is assumed finite.
-/
import proofs.«179185_j83528523973131_2_alg».proof.Proof.HeadSpec
import proofs.«179185_j83528523973131_2_alg».proof.Proof.LibNormSum

noncomputable section

open scoped BigOperators

namespace Cert.HeadSpec

open Idealize.ShloMosaic Cert.DenseRow Cert.RowBias

/-- The 8-row block: `W1`'s rows 2048, 2049, 2050, then `b1`, then four rows of zeros. -/
def block8 (W1 : Fin 2051 → Fin 2048 → EReal) (b1 : Fin 2048 → EReal) (j : Fin 8) (c : Fin 2048) : EReal :=
  if h : j.val < 3 then W1 ⟨2048 + j.val, by omega⟩ c else if j.val = 3 then b1 c else zf

/-- The top 2048 rows of `W1`. -/
def top (W1 : Fin 2051 → Fin 2048 → EReal) (k : Fin 2048) (c : Fin 2048) : EReal := W1 ⟨k.val, by have := k.isLt; omega⟩ c

theorem zf_eq : zf = 0 := Ideal.ofBits_zero_f32
theorem one_eq : one = 1 := Cert.NormSum.one_word

/-- A sum of `n + 3` terms: the first `n` and the last three. -/
theorem sum_add_three {n : ℕ} (f : Fin (n + 3) → EReal) :
    (∑ k : Fin (n + 3), f k) = (∑ k : Fin n, f ⟨k.val, by have := k.isLt; omega⟩) + f ⟨n, by omega⟩ + f ⟨n + 1, by omega⟩ + f ⟨n + 2, by omega⟩ := by
  rw [Fin.sum_univ_castSucc, Fin.sum_univ_castSucc, Fin.sum_univ_castSucc]
  rfl

/-- A sum of `N = n + 3` terms: the first `n` and the last three. -/
theorem sum_split {N n : ℕ} (hN : N = n + 3) (f : Fin N → EReal) :
    (∑ k : Fin N, f k) = (∑ k : Fin n, f ⟨k.val, by have := k.isLt; omega⟩) + f ⟨n, by omega⟩ + f ⟨n + 1, by omega⟩ + f ⟨n + 2, by omega⟩ := by
  subst hN
  exact sum_add_three f

/-- The joined row at one of its first 2048 places is `h` there. -/
theorem cat_low (h : Fin 2048 → EReal) (x : Fin 3 → EReal) (k : Fin 2048) (hk : k.val < 2051) :
    cat (A := 2048) (B := 3) (C := 2051) rfl h x ⟨k.val, hk⟩ = h k := by
  unfold cat; rw [dif_pos k.isLt]

/-- The joined row at place `2048 + i` is the `i`-th of the three features. -/
theorem cat_high (h : Fin 2048 → EReal) (x : Fin 3 → EReal) (i : Fin 3) (hi : 2048 + i.val < 2051) :
    cat (A := 2048) (B := 3) (C := 2051) rfl h x ⟨2048 + i.val, hi⟩ = x i := by
  unfold cat
  rw [dif_neg (by show ¬ (2048 + i.val < 2048); omega)]
  congr 1
  apply Fin.ext
  show 2048 + i.val - 2048 = i.val
  omega

theorem hiddenSplit_eq (h vc vd : Fin 2048 → EReal) (W1 : Fin 2051 → Fin 2048 → EReal) (b1 : Fin 2048 → EReal) :
    hiddenSplit h vc vd (top W1) (block8 W1 b1) = hiddenJoined h vc vd W1 b1 := by
  funext c
  show max ((∑ k, h k * top W1 k c) + ∑ j, pad8 vc vd j * block8 W1 b1 j c) zf
      = max ((∑ k : Fin 2051, cat (A := 2048) (B := 3) (C := 2051) rfl h (feats vc vd) k * W1 k c) + b1 c) zf
  refine congrArg (fun x => max x zf) ?_
  rw [sum_split (N := 2051) (n := 2048) (by norm_num), Fin.sum_univ_eight]
  have e0 : ∀ k : Fin 2048, cat (A := 2048) (B := 3) (C := 2051) rfl h (feats vc vd) ⟨k.val, by have := k.isLt; omega⟩ = h k :=
    fun k => cat_low h _ k _
  have e1 : cat (A := 2048) (B := 3) (C := 2051) rfl h (feats vc vd) ⟨2048, by omega⟩ = align vc vd :=
    cat_high h (feats vc vd) 0 (by decide)
  have e2 : cat (A := 2048) (B := 3) (C := 2051) rfl h (feats vc vd) ⟨2048 + 1, by omega⟩ = diverge vc vd :=
    cat_high h (feats vc vd) 1 (by decide)
  have e3 : cat (A := 2048) (B := 3) (C := 2051) rfl h (feats vc vd) ⟨2048 + 2, by omega⟩ = tension vc vd :=
    cat_high h (feats vc vd) 2 (by decide)
  simp only [e0, e1, e2, e3]
  have p0 : pad8 vc vd 0 = align vc vd := rfl
  have p1 : pad8 vc vd 1 = diverge vc vd := rfl
  have p2 : pad8 vc vd 2 = tension vc vd := rfl
  have p3 : pad8 vc vd 3 = one := rfl
  have p4 : pad8 vc vd 4 = zf := rfl
  have p5 : pad8 vc vd 5 = zf := rfl
  have p6 : pad8 vc vd 6 = zf := rfl
  have p7 : pad8 vc vd 7 = zf := rfl
  have b0 : block8 W1 b1 0 c = W1 ⟨2048, by omega⟩ c := rfl
  have b1' : block8 W1 b1 1 c = W1 ⟨2048 + 1, by omega⟩ c := rfl
  have b2 : block8 W1 b1 2 c = W1 ⟨2048 + 2, by omega⟩ c := rfl
  have b3 : block8 W1 b1 3 c = b1 c := rfl
  have b4 : block8 W1 b1 4 c = zf := rfl
  have b5 : block8 W1 b1 5 c = zf := rfl
  have b6 : block8 W1 b1 6 c = zf := rfl
  have b7 : block8 W1 b1 7 c = zf := rfl
  rw [p0, p1, p2, p3, p4, p5, p6, p7, b0, b1', b2, b3, b4, b5, b6, b7, one_eq, zf_eq, one_mul, mul_zero, add_zero, add_zero, add_zero,
    add_zero]
  have et : (∑ k, h k * top W1 k c) = ∑ k : Fin 2048, h k * W1 ⟨k.val, by have := k.isLt; omega⟩ c := rfl
  rw [et]
  ac_rfl

/-- The head with the first layer split over the top of `W1` and the 8-row block is the head with it joined. -/
theorem Gk_eq (h vc vd : Fin 2048 → EReal) (W1 : Fin 2051 → Fin 2048 → EReal) (b1 : Fin 2048 → EReal)
    (W2 : Fin 2048 → Fin 1024 → EReal) (b2 : Fin 1024 → EReal) (wr : Fin 1024 → EReal) (br : EReal) :
    Gk h vc vd (top W1) (block8 W1 b1) W2 b2 wr br = G h vc vd W1 b1 W2 b2 wr br := by
  unfold Gk G
  rw [hiddenSplit_eq]

end Cert.HeadSpec

end
-- ==== Proof.LibJoin.lean ====
/-
  JOINS AND SLICES READ AT AN INDEX, generic in the extents.

  Beside LibDenseRow's join along the columns: two arrays `[A, N]` and `[B, N]` joined along the rows, read at `(k, c)`
  (`concat_rows_apply`); two vectors `[A]` and `[B]` joined, read at `k` (`concat_vec_apply`); a block of rows cut out of a
  taller array, read at `(k, j)` (`slice_rows_apply`); one column cut out of an array, read at `(p, 0)`
  (`slice_col_apply`).  Each entry of a join comes from one of the two pieces, chosen by its coordinate on the joined axis:
  LibDenseRow's `cat`.  No algebra of the extended reals is used.
-/
import proofs.«179185_j83528523973131_2_alg».proof.Proof.LibDenseRow

noncomputable section

namespace Cert.Join

open Idealize.ShloMosaic Idealize.ShloMosaic.ValueIdx Cert.DenseRow

/-- `[A, N]` over `[B, N]`, joined along axis 0, read at `(k, c)`. -/
theorem concat_rows_apply {A B C N : ℕ} (hC : C = A + B)
    (x₁ : (⟨2, ![A, N]⟩ : Shape).Idx → EReal) (x₂ : (⟨2, ![B, N]⟩ : Shape).Idx → EReal)
    (h : Shape.Concatenates [(⟨2, ![A, N]⟩ : Shape), ⟨2, ![B, N]⟩] ⟨2, ![C, N]⟩ (0 : Fin 2)) (k : Fin C) (c : Fin N) :
    concatenate ⟨2, ![C, N]⟩ (0 : Fin 2) [⟨⟨2, ![A, N]⟩, x₁⟩, ⟨⟨2, ![B, N]⟩, x₂⟩] h (ix2 k c)
      = cat hC (fun a => x₁ (ix2 a c)) (fun b => x₂ (ix2 b c)) k := by
  unfold cat
  by_cases hk : k.val < A
  · rw [dif_pos hk]
    refine concatenate_pair_apply_left (0 : Fin 2) x₁ x₂ h (ix2 k c) rfl (ix2 ⟨k.val, hk⟩ c) fun b => ?_
    match b with
    | ⟨0, _⟩ => rfl
    | ⟨1, _⟩ => rfl
  · rw [dif_neg hk]
    have hkC := k.isLt
    refine concatenate_pair_apply_right (0 : Fin 2) x₁ x₂ h (ix2 k c) rfl rfl (ix2 ⟨k.val - A, by omega⟩ c) (fun b hb => ?_) ?_
    · match b with
      | ⟨0, _⟩ => exact absurd rfl hb
      | ⟨1, _⟩ => rfl
    · show (k.val - A) + A = k.val
      omega

/-- Two vectors joined, read at `k`. -/
theorem concat_vec_apply {A B C : ℕ} (hC : C = A + B)
    (x₁ : (⟨1, ![A]⟩ : Shape).Idx → EReal) (x₂ : (⟨1, ![B]⟩ : Shape).Idx → EReal)
    (h : Shape.Concatenates [(⟨1, ![A]⟩ : Shape), ⟨1, ![B]⟩] ⟨1, ![C]⟩ (0 : Fin 1)) (k : Fin C) :
    concatenate ⟨1, ![C]⟩ (0 : Fin 1) [⟨⟨1, ![A]⟩, x₁⟩, ⟨⟨1, ![B]⟩, x₂⟩] h (ix1 k)
      = cat hC (fun a => x₁ (ix1 a)) (fun b => x₂ (ix1 b)) k := by
  unfold cat
  by_cases hk : k.val < A
  · rw [dif_pos hk]
    refine concatenate_pair_apply_left (0 : Fin 1) x₁ x₂ h (ix1 k) rfl (ix1 ⟨k.val, hk⟩) fun b => ?_
    match b with
    | ⟨0, _⟩ => rfl
  · rw [dif_neg hk]
    have hkC := k.isLt
    refine concatenate_pair_apply_right (0 : Fin 1) x₁ x₂ h (ix1 k) rfl rfl (ix1 ⟨k.val - A, by omega⟩) (fun b hb => ?_) ?_
    · match b with
      | ⟨0, _⟩ => exact absurd rfl hb
    · show (k.val - A) + A = k.val
      omega

/-- `R` rows cut out of a taller array from row `off` on, read at `(k, j)`: row `off + k` of the array. -/
theorem slice_rows_apply {R R' N : ℕ} (off : ℕ) (x : (⟨2, ![R', N]⟩ : Shape).Idx → EReal)
    (h : (⟨2, ![R', N]⟩ : Shape).Slices ![off, 0] ⟨2, ![R, N]⟩) (k : Fin R) (j : Fin N) (k' : Fin R') (hk : k'.val = off + k.val) :
    extractStridedSlice ⟨2, ![R, N]⟩ ![off, 0] x h (ix2 k j) = x (ix2 k' j) :=
  extractStridedSlice_apply ![off, 0] x h (ix2 k j) (ix2 k' j) fun a => by
    match a with
    | ⟨0, _⟩ => exact hk
    | ⟨1, _⟩ => exact (Nat.zero_add _).symm

/-- Column `c0` cut out of an array, read at `(p, 0)`. -/
theorem slice_col_apply {R N : ℕ} (c0 : ℕ) (x : (⟨2, ![R, N]⟩ : Shape).Idx → EReal)
    (h : (⟨2, ![R, N]⟩ : Shape).Slices ![0, c0] ⟨2, ![R, 1]⟩) (p : Fin R) (u : Fin 1) (c : Fin N) (hc : c.val = c0) :
    extractStridedSlice ⟨2, ![R, 1]⟩ ![0, c0] x h (ix2 p u) = x (ix2 p c) :=
  extractStridedSlice_apply ![0, c0] x h (ix2 p u) (ix2 p c) fun a => by
    match a with
    | ⟨0, _⟩ => exact (Nat.zero_add _).symm
    | ⟨1, _⟩ =>
      show c.val = c0 + u.val
      have := u.isLt
      omega

end Cert.Join

end
-- ==== Proof.LibSiluMask.lean ====
/-
  THE ACTIVATION `v · σ(v)` IN ITS TWO SPELLINGS, AND A SIGN MASK IN ITS TWO SPELLINGS, at the ideal values.

  `σ(v) = 1 / (1 + e^(-v))` is the logistic function; `v ↦ v · σ(v)` is the activation often called silu or swish.  Two
  spellings of it occur in printed programs and both are read here at an index where the operand's value is known:
  • on the vector unit, `y · logistic y` entry by entry (`ksilu_at`);
  • on the host, `y · (1 / (1 + e^(-y)))` with the ones the single-precision word of 1.0 broadcast from a scalar, the
    quotient the host's division and the exponential the host's (`hsilu_at`).
  They agree on every extended real, the infinities included, because the library's logistic function is defined as that
  quotient (`silu1_quotient`).
  A mask on integer labels also has two spellings: the label compared, signed, with zero; or the label converted to a
  float and compared with `-1/2`.  An integer is either at least `0` or at most `-1`, so both give the same bit
  (`mask_bit`).  Also: a constant broadcast from a scalar read at an index (`splat_apply`) and a selection read at an index
  (`select_at`).  No program appears in this module; no sum is regrouped and nothing needs to be finite.
-/
import Idealize.ShloMosaic.PureOps.Ideal.Laws
import Idealize.ShloMosaic.Lib.ValueIdx
import Idealize.ShloMosaic.Lib.Pipeline.Value
import proofs.«179185_j83528523973131_2_alg».proof.Proof.LibNormSum

noncomputable section

namespace Cert.SiluMask

open Idealize.ShloMosaic Idealize.ShloMosaic.ValueIdx

/-! ## One number, one row -/

/-- The activation on one number: `v · σ(v)`. -/
def silu1 (v : EReal) : EReal := v * Ideal.logistic v

/-- The activation on every entry of a row. -/
def siluRow {N : ℕ} (x : Fin N → EReal) (j : Fin N) : EReal := silu1 (x j)

/-! ## The activation spelt as a quotient -/

/-- `x · (1 / (1 + e^(-x)))` with the host's division and exponential is `x · σ(x)`: the logistic function is that
    quotient by definition, on every extended real. -/
theorem silu1_quotient (v : EReal) :
    FloatOps.mulf (F := Ideal) (φ := .f32) v
        (FloatOps.hostDivf (1 : EReal) (FloatOps.addf (1 : EReal) (FloatOps.hostUnary .exp (FloatOps.hostNegf v))))
      = silu1 v := rfl

/-- A constant broadcast from a scalar reads the constant's value at every index. -/
theorem splat_apply {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's spelling of the activation, read at an index where the operand's value is known. -/
theorem hsilu_at {s : Shape} (y : FVec Ideal s .f32) (h : (⟨0, ![]⟩ : Shape).BroadcastsInDim s ![]) (i : s.Idx)
    (v : EReal) (hy : y i = v) :
    mulf y (Host.divf (broadcastInDim s ![] h (constant (F := Ideal) ⟨0, ![]⟩ .f32 0x3F800000#32))
        (addf (broadcastInDim s ![] h (constant (F := Ideal) ⟨0, ![]⟩ .f32 0x3F800000#32)) (Host.exp (Host.negf y)))) i
      = silu1 v := by
  show FloatOps.mulf (F := Ideal) (φ := .f32) (y i)
      (FloatOps.hostDivf (broadcastInDim s ![] h (constant (F := Ideal) ⟨0, ![]⟩ .f32 0x3F800000#32) i)
        (FloatOps.addf (broadcastInDim s ![] h (constant (F := Ideal) ⟨0, ![]⟩ .f32 0x3F800000#32) i)
          (FloatOps.hostUnary .exp (FloatOps.hostNegf (y i))))) = _
  rw [splat_apply, Cert.NormSum.one_word, hy]
  exact silu1_quotient v

/-- The vector unit's spelling, `y · logistic y` entry by entry, read at an index where the operand's value is known. -/
theorem ksilu_at {s : Shape} (y : FVec Ideal s .f32) (i : s.Idx) (v : EReal) (hy : y i = v) :
    mulf y (logistic y) i = silu1 v := by
  show FloatOps.mulf (F := Ideal) (φ := .f32) (y i) (FloatOps.logistic (y i)) = _
  rw [hy]
  rfl

/-! ## A selection read at an index -/

/-- `select` at an index where its three operands' values are known. -/
theorem select_at {s : Shape} {α : Type} (c : IVec s 1) (a b : s.Idx → α) (i : s.Idx) (cv : BitVec 1) (av bv : α)
    (hc : c i = cv) (ha : a i = av) (hb : b i = bv) : select c a b i = Scalar.select cv av bv := by
  show Scalar.select (c i) (a i) (b i) = _
  rw [hc, ha, hb]

/-! ## The mask's two spellings -/

/-- The single-precision pattern `0xBF000000` (sign 1, biased exponent 126, fraction 0) denotes `-1/2`:
    `-(2 ^ 23) · 2 ^ (126 - 127 - 23)`. -/
theorem neg_half_word : Ideal.ofBits .f32 0xBF000000#32 = ((-(1 / 2) : ℝ) : EReal) := by
  simp [Ideal.ofBits, Ideal.ieee, -EReal.coe_mul]; norm_num

/-- An integer exceeds `-1/2` exactly when it is at least zero. -/
theorem int_gt_neg_half (n : ℤ) : ((-(1 / 2) : ℝ) : EReal) < ((n : ℝ) : EReal) ↔ 0 ≤ n := by
  rw [EReal.coe_lt_coe_iff]
  constructor
  · intro h
    by_contra hn
    have h1 : n ≤ -1 := by omega
    have h2 : (n : ℝ) ≤ -1 := by exact_mod_cast h1
    linarith
  · intro h
    have h2 : (0 : ℝ) ≤ (n : ℝ) := by exact_mod_cast h
    linarith

/-- The label converted to a float and compared with `-1/2` gives the same bit as the label compared, signed, with
    zero. -/
theorem mask_bit (s : BitVec 32) :
    Ideal.cmp .ogt (((s.toInt : ℝ)) : EReal) (Ideal.ofBits .f32 0xBF000000#32) = IntOp.cmpi .sge s 0#32 := by
  rw [neg_half_word]
  show BitVec.ofBool (decide (((-(1 / 2) : ℝ) : EReal) < ((s.toInt : ℝ) : EReal))) = BitVec.ofBool ((0#32).sle s)
  congr 1
  rw [BitVec.sle, decide_eq_decide]
  exact (int_gt_neg_half s.toInt).trans (by simp)

end Cert.SiluMask

end
-- ==== Proof.LibHostJoin3.lean ====
/-
  A HOST OPERATION OVER THREE BUFFERS, its result with each operand read at its own buffer.

  A host operation that takes a literal family of three buffers `![x, a, b]` (a join of three arrays) computes its
  result from `fun k => F (![x, a, b] k)`, the contents of the `k`-th buffer.  Under that binder the buffer is no literal, so
  what the operands themselves hold (the results of earlier operations) cannot be read further.  Spelt out at the three
  literals the family is `F x`, `F a`, `F b`, and each can then be read as the result of the operation that wrote it.
  The library states this for four buffers; this is the same statement for three.
-/
import Idealize.ShloMosaic.Lib.StableHlo.Run

namespace Idealize.ShloMosaic.StableHlo

open Idealize.ShloMosaic

variable {nD : Nat} {τ : Topo} {sig : RefSig} {Val : EltTy → Type}

/-- The result of an operation over the literal family `![x, a, b]` of buffers, with each operand's contents read at its
    own buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.HeadPrepared.lean ====
/-
  THE SIX ARRAYS THE HOST PREPARES FOR THE REGION, read at an index, at the ideal values.

  From the launch arrays W1 [2051, 2048], b1 [2048], W2 [2048, 1024], b2 [1024], Wr [1024, 1], br [1] the host computes:
    • the top 2048 rows of W1;
    • an 8-row block: rows 2048, 2049, 2050 of W1, then b1 as one row, then four rows of zeros, joined along the rows;
    • W2 itself;
    • b2 as one row [1, 1024], Wr's single column as one row [1, 1024], br as [1, 1].
  A change of float format is the identity at the ideal values, a reshape keeps the row-major order, a slice shifts the
  row, and the join of three pieces is read piece by piece.
-/
import proofs.«179185_j83528523973131_2_alg».proof.Proof.HeadLaunchIdeal
import proofs.«179185_j83528523973131_2_alg».proof.Proof.HeadRegroup
import proofs.«179185_j83528523973131_2_alg».proof.Proof.LibJoin
import proofs.«179185_j83528523973131_2_alg».proof.Proof.LibSiluMask
import proofs.«179185_j83528523973131_2_alg».proof.Proof.LibHostJoin3
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Prepared

open Idealize.ShloMosaic Idealize.ShloMosaic.TcCoe Idealize.SL.Sem Idealize.ShloMosaic.StableHlo Idealize.ShloMosaic.ValueIdx
open Cert.KernelIdeal Cert.KernelIdeal.Gen Cert.KernelIdeal.Hand

variable (m : (ℓ : Loc nD τ sig) → Buf (Elt Ideal) ℓ) (c : Dev nD)

/-! ## The launch arrays -/

abbrev aW1 : S2051x2048.Idx → EReal := m ((c : Thread nD τ).loc main_arg3)
abbrev ab1 : S2048.Idx → EReal := m ((c : Thread nD τ).loc main_arg4)
abbrev aW2 : S2048x1024.Idx → EReal := m ((c : Thread nD τ).loc main_arg5)
abbrev ab2 : S1024.Idx → EReal := m ((c : Thread nD τ).loc main_arg6)
abbrev aWr : S1024x1.Idx → EReal := m ((c : Thread nD τ).loc main_arg7)
abbrev abr : S1.Idx → EReal := m ((c : Thread nD τ).loc main_arg8)

/-! ## Each prepared array as the term of its operations -/

theorem top_eq : (entry m c main_v1 : S2048x2048.Idx → EReal)
    = extractStridedSlice S2048x2048 ![0, 0] (aW1 m c) slices_S2051x2048_S2048x2048_0_0 := by
  dsimp only [entry, hostOps0]; after_results; rfl

/-- The three pieces of the 8-row block: W1's last three rows, b1 as one row, four rows of zeros. -/
abbrev pieces : List ((s : Shape) × (s.Idx → EReal)) :=
  [⟨S3x2048, extractStridedSlice S3x2048 ![2048, 0] (aW1 m c) slices_S2051x2048_S3x2048_2048_0⟩,
    ⟨S1x2048, shapeCast S1x2048 (ab1 m c) shapeCasts_S2048_S1x2048⟩,
    ⟨S4x2048, broadcastInDim S4x2048 ![] bcast_S_S4x2048 (constant (F := Ideal) S_ .f32 0x00000000#32)⟩]

theorem block_eq : (entry m c main_v6 : S8x2048.Idx → EReal)
    = concatenate S8x2048 0 (pieces m c) concatenates_S3x2048_S1x2048_S4x2048_S8x2048_d0 := by
  dsimp only [entry, hostOps0]
  simp only [after_cons, after_nil]
  repeat (first
    | rw [nullary_result] | rw [unary_result] | rw [reshape_result] | rw [nary3_result]
    | (rw [nullary_result_ne]; rotate_left; decide)
    | (rw [unary_result_ne]; rotate_left; decide)
    | (rw [reshape_result_ne]; rotate_left; decide)
    | (rw [nary_result_ne]; rotate_left; decide))
  rfl

theorem w2_eq : (entry m c main_v7 : S2048x1024.Idx → EReal) = aW2 m c := by
  dsimp only [entry, hostOps0]; after_results; rfl

theorem b2_eq : (entry m c main_v8 : S1x1024.Idx → EReal) = shapeCast S1x1024 (ab2 m c) shapeCasts_S1024_S1x1024 := by
  dsimp only [entry, hostOps0]; after_results; rfl

theorem wr_eq : (entry m c main_v9 : S1x1024.Idx → EReal) = shapeCast S1x1024 (aWr m c) shapeCasts_S1024x1_S1x1024 := by
  dsimp only [entry, hostOps0]; after_results; rfl

theorem br_eq : (entry m c main_v10 : S1x1.Idx → EReal) = shapeCast S1x1 (abr m c) shapeCasts_S1_S1x1 := by
  dsimp only [entry, hostOps0]; after_results; rfl

/-! ## Read at an index -/

/-- Row `k` of the top block is row `k` of W1. -/
theorem top_apply (k j : Fin 2048) :
    (entry m c main_v1 : S2048x2048.Idx → EReal) (ix2 k j) = Cert.HeadSpec.top (fun a b => aW1 m c (ix2 a b)) k j := by
  rw [top_eq]
  exact Cert.Join.slice_rows_apply 0 (aW1 m c) slices_S2051x2048_S2048x2048_0_0 k j ⟨k.val, by have := k.isLt; omega⟩ (Nat.zero_add _).symm

/-- b2 as one row. -/
theorem b2_apply (j : Fin 1024) : (entry m c main_v8 : S1x1024.Idx → EReal) (ix2 (0 : Fin 1) j) = ab2 m c (ix1 j) := by
  rw [b2_eq]
  exact shapeCast_a_1a_apply (ab2 m c) shapeCasts_S1024_S1x1024 0 j

/-- Wr's column as one row: both indices sit at row-major position `j`. -/
theorem wr_apply (j : Fin 1024) : (entry m c main_v9 : S1x1024.Idx → EReal) (ix2 (0 : Fin 1) j) = aWr m c (ix2 j (0 : Fin 1)) := by
  rw [wr_eq]
  refine shapeCast_apply (aWr m c) shapeCasts_S1024x1_S1x1024 (ix2 (0 : Fin 1) j) (ix2 j (0 : Fin 1)) ?_
  rw [Shape.rowMajor_val_two, Shape.rowMajor_val_two]
  show j.val * 1 + 0 = 0 * 1024 + j.val
  omega

/-- br as a [1, 1] array. -/
theorem br_apply : (entry m c main_v10 : S1x1.Idx → EReal) (ix2 (0 : Fin 1) (0 : Fin 1)) = abr m c (ix1 (0 : Fin 1)) := by
  rw [br_eq]
  exact shapeCast_a_1a_apply (abr m c) shapeCasts_S1_S1x1 0 0

/-- The 8-row block read at `(j, cc)`: W1's row `2048 + j` for `j < 3`, b1 for `j = 3`, zero below. -/
theorem block_apply (j : Fin 8) (cc : Fin 2048) :
    (entry m c main_v6 : S8x2048.Idx → EReal) (ix2 j cc)
      = Cert.HeadSpec.block8 (fun a b => aW1 m c (ix2 a b)) (fun b => ab1 m c (ix1 b)) j cc := by
  rw [block_eq]
  unfold Cert.HeadSpec.block8
  by_cases h3 : j.val < 3
  · rw [dif_pos h3]
    refine (concatenate_apply_piece (t := S8x2048) (0 : Fin 2) (pieces m c) concatenates_S3x2048_S1x2048_S4x2048_S8x2048_d0 (ix2 j cc) 0 (by show (0 : ℕ) < 3; omega)
      S3x2048 _ rfl rfl 0 rfl (ix2 (⟨j.val, h3⟩ : Fin 3) cc) (fun b hb => ?_) ?_).trans ?_
    · match b with
      | ⟨0, _⟩ => exact absurd rfl hb
      | ⟨1, _⟩ => rfl
    · show 0 + j.val = j.val
      omega
    · exact Cert.Join.slice_rows_apply 2048 (aW1 m c) slices_S2051x2048_S3x2048_2048_0 ⟨j.val, h3⟩ cc ⟨2048 + j.val, by omega⟩ rfl
  · rw [dif_neg h3]
    by_cases h4 : j.val = 3
    · rw [if_pos h4]
      refine (concatenate_apply_piece (t := S8x2048) (0 : Fin 2) (pieces m c) concatenates_S3x2048_S1x2048_S4x2048_S8x2048_d0 (ix2 j cc) 1 (by show (1 : ℕ) < 3; omega)
        S1x2048 _ rfl rfl 3 rfl (ix2 (0 : Fin 1) cc) (fun b hb => ?_) ?_).trans ?_
      · match b with
        | ⟨0, _⟩ => exact absurd rfl hb
        | ⟨1, _⟩ => rfl
      · show 3 + 0 = j.val
        omega
      · exact shapeCast_a_1a_apply (ab1 m c) shapeCasts_S2048_S1x2048 0 cc
    · rw [if_neg h4]
      have hj := j.isLt
      refine (concatenate_apply_piece (t := S8x2048) (0 : Fin 2) (pieces m c) concatenates_S3x2048_S1x2048_S4x2048_S8x2048_d0 (ix2 j cc) 2 (by show (2 : ℕ) < 3; omega)
        S4x2048 _ rfl rfl 4 rfl (ix2 (⟨j.val - 4, by omega⟩ : Fin 4) cc) (fun b hb => ?_) ?_).trans ?_
      · match b with
        | ⟨0, _⟩ => exact absurd rfl hb
        | ⟨1, _⟩ => rfl
      · show 4 + (j.val - 4) = j.val
        omega
      · exact Cert.SiluMask.splat_apply _ bcast_S_S4x2048 _

end Cert.KernelIdeal.Prepared

end
-- ==== Proof.LibSigmoid.lean ====
/-
  THE SIGMOID IN ITS TWO SPELLINGS, at the ideal values.

  `σ(v) = 1 / (1 + e^(-v))`.  On the vector unit it is one operation applied entry by entry; on the host it is spelt out as
  the quotient, with the ones the single-precision word of 1.0 broadcast from a scalar, the host's negation, exponential
  and division.  The library's logistic function is that quotient by definition, so the two agree on every extended
  real, the infinities included.  Both are read here at an index where the operand's value is known.  No sum is regrouped
  and nothing needs to be finite.
-/
import proofs.«179185_j83528523973131_2_alg».proof.Proof.LibSiluMask

noncomputable section

namespace Cert.Sigmoid

open Idealize.ShloMosaic Idealize.ShloMosaic.ValueIdx

/-- The vector unit's spelling at an index. -/
theorem klogistic_at {s : Shape} (y : FVec Ideal s .f32) (i : s.Idx) (v : EReal) (hy : y i = v) :
    logistic y i = Ideal.logistic v := by
  show FloatOps.logistic (F := Ideal) (φ := .f32) (y i) = _
  rw [hy]
  rfl

/-- The host's spelling at an index. -/
theorem hlogistic_at {s : Shape} (y : FVec Ideal s .f32) (h h' : (⟨0, ![]⟩ : Shape).BroadcastsInDim s ![]) (i : s.Idx)
    (v : EReal) (hy : y i = v) :
    Host.divf (broadcastInDim s ![] h (constant (F := Ideal) ⟨0, ![]⟩ .f32 0x3F800000#32))
        (addf (broadcastInDim s ![] h' (constant (F := Ideal) ⟨0, ![]⟩ .f32 0x3F800000#32)) (Host.exp (Host.negf y))) i
      = Ideal.logistic v := by
  show FloatOps.hostDivf (F := Ideal) (φ := .f32) (broadcastInDim s ![] h (constant (F := Ideal) ⟨0, ![]⟩ .f32 0x3F800000#32) i)
        (FloatOps.addf (broadcastInDim s ![] h' (constant (F := Ideal) ⟨0, ![]⟩ .f32 0x3F800000#32) i)
          (FloatOps.hostUnary .exp (FloatOps.hostNegf (y i)))) = _
  rw [Cert.SiluMask.splat_apply, Cert.NormSum.one_word, hy]
  rfl

end Cert.Sigmoid

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.TileHead.lean ====
/-
  THE KERNEL BODY'S ARITHMETIC ON ONE TILE OF 256 ROWS, READ AT A ROW, at the ideal values.

  The body's three pure terms are read at row `y` of the tile.  Stage by stage:
  • a lane sum (a sum over axis 1 into the zero word) read at a row is the plain sum over that row (`rowsum2048`,
    `rowsum1024`), and kept as a column it is read at `(y, 0)` (`colsum2048`);
  • the clamped length of a row is `max (sqrt (∑ k, v k · v k)) ε` (`knorm_at`), the row divided by it is the direction
    (`kdir_at`), the lane sum of the product of two directions is the cosine (`kalign_at`), one minus it and the square
    of that are the other two features (`kdiverge_at`, `ktension_at`);
  • four columns and a block of four columns joined along the columns read, at `(y, j)` for `j` among eight, the
    eight entries in order (`cat5_at`), so the joined features are the eight numbers `align, diverge, tension, 1, 0, 0,
    0, 0` (`kfeats_at`);
  • a plain matrix product into the zero accumulator is the sum over the contracted extent (`matmul0_at`; the operand
    indices of the plain dimension numbers by evaluation, `plain_l`, `plain_r`), a change of format is the identity and a
    cast of a shape to itself is the identity, so the first layer before its rectifier is the sum of the two products
    (`first_at`);
  • the rectifier, the second layer with its one-row bias and its rectifier (`kshared_at`), the product with the weight
    row summed over the lanes plus the bias (`kpre_at`) and the sigmoid (`second_at`) are the specification's `out`.
  Together: `tile_row`.  No sum is regrouped and nothing needs to be finite.
-/
import proofs.«179185_j83528523973131_2_alg».proof.Proof.Gen.KernelIdeal.Skeleton
import proofs.«179185_j83528523973131_2_alg».proof.Proof.HeadSpec
import proofs.«179185_j83528523973131_2_alg».proof.Proof.LibSigmoid
import proofs.«179185_j83528523973131_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TileHead

open Idealize.ShloMosaic Idealize.ShloMosaic.ValueIdx Idealize.ShloMosaic.ColumnLayout Cert.KernelIdeal Cert.KernelIdeal.Gen

/-- The lane sum of a 256-by-2048 tile, read at a row: the sum over the row. -/
theorem rowsum2048 (x : FVec Ideal S256x2048 .f32) (h : S256x2048.Reduces [1] S256) (hφ : FKind.Formats .f32)
    (hacc : (0x00000000#32 : BitVec 32) = FKind.add.neutral .f32 hφ) (y : Fin 256) :
    multiReduction .add [1] S256 x 0x00000000#32 h hφ hacc (ix1 y) = ∑ k : Fin 2048, x (ix2 y k) := by
  refine (Ideal.multiReduction_add_single x 0x00000000#32 h hφ hacc (ix1 y)).trans ?_
  refine Finset.sum_congr rfl fun k _ => congrArg x ?_
  funext ax
  match ax with
  | ⟨0, _⟩ => rfl
  | ⟨1, _⟩ => rfl

/-- The lane sum of a 256-by-1024 tile, read at a row: the sum over the row. -/
theorem rowsum1024 (x : FVec Ideal S256x1024 .f32) (h : S256x1024.Reduces [1] S256) (hφ : FKind.Formats .f32)
    (hacc : (0x00000000#32 : BitVec 32) = FKind.add.neutral .f32 hφ) (y : Fin 256) :
    multiReduction .add [1] S256 x 0x00000000#32 h hφ hacc (ix1 y) = ∑ k : Fin 1024, x (ix2 y k) := by
  refine (Ideal.multiReduction_add_single x 0x00000000#32 h hφ hacc (ix1 y)).trans ?_
  refine Finset.sum_congr rfl fun k _ => congrArg x ?_
  funext ax
  match ax with
  | ⟨0, _⟩ => rfl
  | ⟨1, _⟩ => rfl

/-- The lane sum kept as a column, read at a row. -/
theorem colsum2048 (x : FVec Ideal S256x2048 .f32) (h : S256x2048.Reduces [1] S256) (hφ : FKind.Formats .f32)
    (hacc : (0x00000000#32 : BitVec 32) = FKind.add.neutral .f32 hφ) (hc : S256.ShapeCasts S256x1) (y : Fin 256) :
    shapeCast S256x1 (multiReduction .add [1] S256 x 0x00000000#32 h hφ hacc) hc (ix2 y (0 : Fin 1))
      = ∑ k : Fin 2048, x (ix2 y k) :=
  (shapeCast_a_a1_apply _ hc y 0).trans (rowsum2048 x h hφ hacc y)

/-- The clamped length of each row of a tile, as a column. -/
def knorm (v : FVec Ideal S256x2048 .f32) : FVec Ideal S256x1 .f32 :=
  maximumf (sqrt (shapeCast S256x1 (multiReduction .add [1] S256 (mulf v v) 0x00000000#32 reduces_S256x2048_S256 (.inl rfl) rfl)
    shapeCasts_S256_S256x1)) (broadcast S256x1 (Scalar.ofBits (F := Ideal) .f32 0x2B8CBCCC#32))

theorem knorm_at (v : FVec Ideal S256x2048 .f32) (y : Fin 256) :
    knorm v (ix2 y (0 : Fin 1)) = Cert.HeadSpec.len (fun k => v (ix2 y k)) := by
  exact congrArg (fun s => max (Ideal.sqrt s) Cert.HeadSpec.eps) (colsum2048 (mulf v v) _ _ _ _ y)

/-- Each row of a tile divided by its clamped length. -/
def kdir (v : FVec Ideal S256x2048 .f32) : FVec Ideal S256x2048 .f32 :=
  divf v (broadcastTo S256x2048 (knorm v) broadcasts_S256x1_S256x2048)

theorem kdir_at (v : FVec Ideal S256x2048 .f32) (y : Fin 256) (k : Fin 2048) :
    kdir v (ix2 y k) = Cert.HeadSpec.dir (fun k => v (ix2 y k)) k := by
  show Ideal.div (v (ix2 y k)) (broadcastTo S256x2048 (knorm v) broadcasts_S256x1_S256x2048 (ix2 y k)) = _
  rw [broadcastTo_a1_ab_apply, knorm_at]
  rfl

/-- The cosine of the rows of two tiles, as a column. -/
def kalign (v1 v2 : FVec Ideal S256x2048 .f32) : FVec Ideal S256x1 .f32 :=
  shapeCast S256x1 (multiReduction .add [1] S256 (mulf (kdir v1) (kdir v2)) 0x00000000#32 reduces_S256x2048_S256 (.inl rfl) rfl)
    shapeCasts_S256_S256x1

theorem kalign_at (v1 v2 : FVec Ideal S256x2048 .f32) (y : Fin 256) :
    kalign v1 v2 (ix2 y (0 : Fin 1)) = Cert.HeadSpec.align (fun k => v1 (ix2 y k)) (fun k => v2 (ix2 y k)) := by
  refine (colsum2048 _ _ _ _ _ y).trans ?_
  refine Finset.sum_congr rfl fun k _ => ?_
  show kdir v1 (ix2 y k) * kdir v2 (ix2 y k) = _
  rw [kdir_at, kdir_at]

/-- Four columns and a block of four columns joined along the columns, read at a row: the eight entries in order. -/
theorem cat5_at {α : Type} (a b c d : S256x1.Idx → α) (e : S256x4.Idx → α)
    (h : Shape.Concatenates [S256x1, S256x1, S256x1, S256x1, S256x4] S256x8 1) (y : Fin 256) (j : Fin 8) :
    concatenate S256x8 1 [⟨S256x1, a⟩, ⟨S256x1, b⟩, ⟨S256x1, c⟩, ⟨S256x1, d⟩, ⟨S256x4, e⟩] h (ix2 y j)
      = ![a (ix2 y (0 : Fin 1)), b (ix2 y (0 : Fin 1)), c (ix2 y (0 : Fin 1)), d (ix2 y (0 : Fin 1)),
          e (ix2 y (0 : Fin 4)), e (ix2 y (1 : Fin 4)), e (ix2 y (2 : Fin 4)), e (ix2 y (3 : Fin 4))] j := by
  have hi1 : ∀ (q : Fin 8) (b' : Fin S256x1.rank), b'.cast (rfl : S256x1.rank = S256x8.rank) ≠ (1 : Fin 2) →
      ((ix2 y (0 : Fin 1) : S256x1.Idx) b').val = ((ix2 y q : S256x8.Idx) (b'.cast rfl)).val := fun q b' hb => by
    match b' with
    | ⟨0, _⟩ => rfl
    | ⟨1, _⟩ => exact absurd rfl hb
  have hi4 : ∀ (q : Fin 8) (r : Fin 4) (b' : Fin S256x4.rank), b'.cast (rfl : S256x4.rank = S256x8.rank) ≠ (1 : Fin 2) →
      ((ix2 y r : S256x4.Idx) b').val = ((ix2 y q : S256x8.Idx) (b'.cast rfl)).val := fun q r b' hb => by
    match b' with
    | ⟨0, _⟩ => rfl
    | ⟨1, _⟩ => exact absurd rfl hb
  have P := concatenate_apply_piece (t := S256x8) (1 : Fin 2) [⟨S256x1, a⟩, ⟨S256x1, b⟩, ⟨S256x1, c⟩, ⟨S256x1, d⟩, ⟨S256x4, e⟩] h
  match j with
  | ⟨0, _⟩ => exact P (ix2 y (⟨0, by omega⟩ : Fin 8)) 0 (by simp) S256x1 a rfl rfl 0 rfl (ix2 y (0 : Fin 1)) (hi1 _) rfl
  | ⟨1, _⟩ => exact P (ix2 y (⟨1, by omega⟩ : Fin 8)) 1 (by simp) S256x1 b rfl rfl 1 rfl (ix2 y (0 : Fin 1)) (hi1 _) rfl
  | ⟨2, _⟩ => exact P (ix2 y (⟨2, by omega⟩ : Fin 8)) 2 (by simp) S256x1 c rfl rfl 2 rfl (ix2 y (0 : Fin 1)) (hi1 _) rfl
  | ⟨3, _⟩ => exact P (ix2 y (⟨3, by omega⟩ : Fin 8)) 3 (by simp) S256x1 d rfl rfl 3 rfl (ix2 y (0 : Fin 1)) (hi1 _) rfl
  | ⟨4, _⟩ => exact P (ix2 y (⟨4, by omega⟩ : Fin 8)) 4 (by simp) S256x4 e rfl rfl 4 rfl (ix2 y (0 : Fin 4)) (hi4 _ _) rfl
  | ⟨5, _⟩ => exact P (ix2 y (⟨5, by omega⟩ : Fin 8)) 4 (by simp) S256x4 e rfl rfl 4 rfl (ix2 y (1 : Fin 4)) (hi4 _ _) rfl
  | ⟨6, _⟩ => exact P (ix2 y (⟨6, by omega⟩ : Fin 8)) 4 (by simp) S256x4 e rfl rfl 4 rfl (ix2 y (2 : Fin 4)) (hi4 _ _) rfl
  | ⟨7, _⟩ => exact P (ix2 y (⟨7, by omega⟩ : Fin 8)) 4 (by simp) S256x4 e rfl rfl 4 rfl (ix2 y (3 : Fin 4)) (hi4 _ _) rfl

/-- One minus the cosine, as a column. -/
def kdiverge (v1 v2 : FVec Ideal S256x2048 .f32) : FVec Ideal S256x1 .f32 :=
  subf (broadcast S256x1 (Scalar.ofBits (F := Ideal) .f32 0x3F800000#32)) (kalign v1 v2)

/-- Its square, as a column. -/
def ktension (v1 v2 : FVec Ideal S256x2048 .f32) : FVec Ideal S256x1 .f32 :=
  mulf (kdiverge v1 v2) (kdiverge v1 v2)

theorem kdiverge_at (v1 v2 : FVec Ideal S256x2048 .f32) (y : Fin 256) :
    kdiverge v1 v2 (ix2 y (0 : Fin 1)) = Cert.HeadSpec.diverge (fun k => v1 (ix2 y k)) (fun k => v2 (ix2 y k)) :=
  congrArg (fun s => Cert.HeadSpec.one - s) (kalign_at v1 v2 y)

theorem ktension_at (v1 v2 : FVec Ideal S256x2048 .f32) (y : Fin 256) :
    ktension v1 v2 (ix2 y (0 : Fin 1)) = Cert.HeadSpec.tension (fun k => v1 (ix2 y k)) (fun k => v2 (ix2 y k)) :=
  congrArg (fun s => s * s) (kdiverge_at v1 v2 y)

/-- The eight columns the split first layer multiplies with its 8-row block. -/
def kfeats (v1 v2 : FVec Ideal S256x2048 .f32) : FVec Ideal S256x8 .f32 :=
  concatenate S256x8 1 [⟨S256x1, kalign v1 v2⟩, ⟨S256x1, kdiverge v1 v2⟩, ⟨S256x1, ktension v1 v2⟩,
    ⟨S256x1, broadcast S256x1 (Scalar.ofBits (F := Ideal) .f32 0x3F800000#32)⟩,
    ⟨S256x4, broadcast S256x4 (Scalar.ofBits (F := Ideal) .f32 0x00000000#32)⟩]
    concatenates_S256x1_S256x1_S256x1_S256x1_S256x4_S256x8_d1

theorem kfeats_at (v1 v2 : FVec Ideal S256x2048 .f32) (y : Fin 256) (j : Fin 8) :
    kfeats v1 v2 (ix2 y j) = Cert.HeadSpec.pad8 (fun k => v1 (ix2 y k)) (fun k => v2 (ix2 y k)) j := by
  refine (cat5_at _ _ _ _ _ _ y j).trans ?_
  rw [kalign_at, kdiverge_at, ktension_at]
  rfl

/-! ## A plain matrix product into the zero accumulator, read at an index -/

theorem plain_l {R K N : ℕ} (p : Fin R) (c : Fin N) (k : Fin K) :
    (DotDims.plain R K N).lhsIdx (ix2 p c) ((contrEquiv1 (DotDims.plain R K N) K rfl rfl).symm k) = ix2 p k := by
  have c2 := contrEquiv1_symm_val (DotDims.plain R K N) K rfl rfl k
  funext ax; apply Fin.ext
  match ax with
  | ⟨0, _⟩ => simp [DotDims.lhsIdx, DotDims.plain]; rfl
  | ⟨1, _⟩ => simp [DotDims.lhsIdx, DotDims.plain]; exact c2

theorem plain_r {R K N : ℕ} (p : Fin R) (c : Fin N) (k : Fin K) :
    (DotDims.plain R K N).rhsIdx (ix2 p c) ((contrEquiv1 (DotDims.plain R K N) K rfl rfl).symm k) = ix2 k c := by
  have c2 := contrEquiv1_symm_val (DotDims.plain R K N) K rfl rfl k
  funext ax; apply Fin.ext
  match ax with
  | ⟨0, _⟩ => simp [DotDims.rhsIdx, DotDims.plain]; exact c2
  | ⟨1, _⟩ => simp [DotDims.rhsIdx, DotDims.plain]; rfl

/-- A plain product into the zero accumulator at `(p, c)`: the sum over the contracted extent. -/
theorem matmul0_at {R K N : ℕ} {φ₁ φ₂ : FTy} (prec : Option ContractPrecision) (a : FVec Ideal ⟨2, ![R, K]⟩ φ₁)
    (b : FVec Ideal ⟨2, ![K, N]⟩ φ₂) (p : Fin R) (c : Fin N) :
    matmul (DotDims.plain R K N) prec a b (constant ⟨2, ![R, N]⟩ .f32 0x00000000#32) (ix2 p c)
      = ∑ k : Fin K, a (ix2 p k) * b (ix2 k c) :=
  (Ideal.matmul_constant_zero_apply _ prec a b (ix2 p c)).trans
    (Cert.DenseRow.contr_sum (DotDims.plain R K N) rfl rfl plain_l plain_r a b p c)

/-- The first layer before its rectifier, read at `(y, c)`. -/
theorem first_at (v0 v1 v2 : FVec Ideal S256x2048 .f32) (v30 : FVec Ideal S2048x2048 .bf16) (v33 : FVec Ideal S8x2048 .bf16)
    (y : Fin 256) (c : Fin 2048) :
    k0_pay2 (F := Ideal) v0 v1 v2 v30 v33 (ix2 y c)
      = (∑ k, v0 (ix2 y k) * v30 (ix2 k c))
        + ∑ j, Cert.HeadSpec.pad8 (fun k => v1 (ix2 y k)) (fun k => v2 (ix2 y k)) j * v33 (ix2 j c) := by
  show matmul (DotDims.plain 256 2048 2048) none (truncf .bf16 v0 bitsLt_bf16_f32)
        (shapeCast S2048x2048 v30 shapeCasts_S2048x2048_S2048x2048) (constant S256x2048 .f32 0x00000000#32) (ix2 y c)
      + matmul (DotDims.plain 256 8 2048) none (truncf .bf16 (kfeats v1 v2) bitsLt_bf16_f32)
        (shapeCast S8x2048 v33 shapeCasts_S8x2048_S8x2048) (constant S256x2048 .f32 0x00000000#32) (ix2 y c) = _
  have e1 := matmul0_at none (truncf .bf16 v0 bitsLt_bf16_f32)
    (shapeCast S2048x2048 v30 shapeCasts_S2048x2048_S2048x2048) y c
  have e2 := matmul0_at none (truncf .bf16 (kfeats v1 v2) bitsLt_bf16_f32)
    (shapeCast S8x2048 v33 shapeCasts_S8x2048_S8x2048) y c
  refine (congrArg₂ (· + ·) e1 e2).trans ?_
  refine congrArg₂ (· + ·) ?_ ?_
  · refine Finset.sum_congr rfl fun k _ => ?_
    exact congrArg (fun w : FVec Ideal S2048x2048 .bf16 => v0 (ix2 y k) * w (ix2 k c)) (shapeCast_self v30 _)
  · refine Finset.sum_congr rfl fun j _ => ?_
    refine congrArg₂ (· * ·) (kfeats_at v1 v2 y j) ?_
    exact congrArg (fun w : FVec Ideal S8x2048 .bf16 => w (ix2 j c)) (shapeCast_self v33 _)

/-! ## The second layer and the head -/

/-- The second layer with its rectifier on a tile whose first layer (before its rectifier) is `x`. -/
def kshared (x : FVec Ideal S256x2048 .f32) (v40 : FVec Ideal S2048x1024 .bf16) (v43 : FVec Ideal S1x1024 .f32) :
    FVec Ideal S256x1024 .f32 :=
  maximumf
    (addf
      (matmul dot_S256x2048_S2048x1024_S256x1024_1_0_0_1_n_n none
        (truncf .bf16 (maximumf x (k0_pay3 (F := Ideal))) bitsLt_bf16_f32)
        (shapeCast S2048x1024 v40 shapeCasts_S2048x1024_S2048x1024) (constant S256x1024 .f32 0x00000000#32))
      (broadcastTo S256x1024 (shapeCast S1x1024 v43 shapeCasts_S1x1024_S1x1024) broadcasts_S1x1024_S256x1024))
    (broadcast S256x1024 (Scalar.ofBits (F := Ideal) .f32 0x00000000#32))

theorem kshared_at (x : FVec Ideal S256x2048 .f32) (v40 : FVec Ideal S2048x1024 .bf16) (v43 : FVec Ideal S1x1024 .f32)
    (y : Fin 256) (j : Fin 1024) :
    kshared x v40 v43 (ix2 y j)
      = Cert.DenseRow.act Cert.RowBias.zf
          (Cert.DenseRow.layer (fun c => max (x (ix2 y c)) Cert.RowBias.zf) (fun k j => v40 (ix2 k j))
            (fun j => v43 (ix2 (0 : Fin 1) j))) j := by
  have e := Cert.RowBias.klayer1_apply (DotDims.plain 256 2048 1024) rfl rfl plain_l plain_r none
    (truncf .bf16 (maximumf x (k0_pay3 (F := Ideal))) bitsLt_bf16_f32)
    (shapeCast S2048x1024 v40 shapeCasts_S2048x1024_S2048x1024) v43 shapeCasts_S1x1024_S1x1024
    broadcasts_S1x1024_S256x1024 y j
  refine (congrArg (fun s => max s Cert.RowBias.zf) e).trans ?_
  refine congrArg (fun w : FVec Ideal S2048x1024 .bf16 => Cert.DenseRow.act Cert.RowBias.zf
    (Cert.DenseRow.layer (fun c => max (x (ix2 y c)) Cert.RowBias.zf) (fun k j => w (ix2 k j))
      (fun j => v43 (ix2 (0 : Fin 1) j))) j) (shapeCast_self v40 _)

/-- The head before its sigmoid, as a column. -/
def kpre (x : FVec Ideal S256x2048 .f32) (v40 : FVec Ideal S2048x1024 .bf16) (v43 v49 : FVec Ideal S1x1024 .f32)
    (v55 : FVec Ideal S1x1 .f32) : FVec Ideal S256x1 .f32 :=
  addf
    (shapeCast S256x1
      (multiReduction .add [1] S256
        (mulf (kshared x v40 v43)
          (broadcastTo S256x1024 (shapeCast S1x1024 v49 shapeCasts_S1x1024_S1x1024) broadcasts_S1x1024_S256x1024))
        0x00000000#32 reduces_S256x1024_S256 (.inl rfl) rfl)
      shapeCasts_S256_S256x1)
    (broadcastTo S256x1 (shapeCast S1x1 v55 shapeCasts_S1x1_S1x1) broadcasts_S1x1_S256x1)

theorem kpre_at (x : FVec Ideal S256x2048 .f32) (v40 : FVec Ideal S2048x1024 .bf16) (v43 v49 : FVec Ideal S1x1024 .f32)
    (v55 : FVec Ideal S1x1 .f32) (y : Fin 256) :
    kpre x v40 v43 v49 v55 (ix2 y (0 : Fin 1))
      = (∑ j, Cert.DenseRow.act Cert.RowBias.zf
          (Cert.DenseRow.layer (fun c => max (x (ix2 y c)) Cert.RowBias.zf) (fun k j => v40 (ix2 k j))
            (fun j => v43 (ix2 (0 : Fin 1) j))) j * v49 (ix2 (0 : Fin 1) j))
        + v55 (ix2 (0 : Fin 1) (0 : Fin 1)) := by
  refine congrArg₂ (· + ·) ?_ ?_
  · refine (shapeCast_a_a1_apply _ shapeCasts_S256_S256x1 y 0).trans ?_
    refine (rowsum1024 _ _ _ _ y).trans ?_
    refine Finset.sum_congr rfl fun j _ => ?_
    refine congrArg₂ (· * ·) (kshared_at x v40 v43 y j) ?_
    refine (broadcastTo_1b_ab_apply _ broadcasts_S1x1024_S256x1024 y j).trans ?_
    exact congrArg (fun w : FVec Ideal S1x1024 .f32 => w (ix2 (0 : Fin 1) j)) (shapeCast_self v49 _)
  · refine (broadcastTo_1b_ab_apply _ broadcasts_S1x1_S256x1 y (0 : Fin 1)).trans ?_
    exact congrArg (fun w : FVec Ideal S1x1 .f32 => w (ix2 (0 : Fin 1) (0 : Fin 1))) (shapeCast_self v55 _)

/-- The rectifier, the second layer, its rectifier and the head on a tile whose first layer is `x`, read at a row. -/
theorem second_at (x : FVec Ideal S256x2048 .f32) (v40 : FVec Ideal S2048x1024 .bf16) (v43 v49 : FVec Ideal S1x1024 .f32)
    (v55 : FVec Ideal S1x1 .f32) (y : Fin 256) :
    k0_pay1 (F := Ideal) x (k0_pay3 (F := Ideal)) v40 v43 v49 v55 (ix2 y (0 : Fin 1))
      = Cert.HeadSpec.out (fun c => max (x (ix2 y c)) Cert.RowBias.zf) (fun k j => v40 (ix2 k j))
          (fun j => v43 (ix2 (0 : Fin 1) j)) (fun j => v49 (ix2 (0 : Fin 1) j)) (v55 (ix2 (0 : Fin 1) (0 : Fin 1))) :=
  Cert.Sigmoid.klogistic_at (kpre x v40 v43 v49 v55) (ix2 y (0 : Fin 1)) _ (kpre_at x v40 v43 v49 v55 y)

/-! ## The kernel body on one tile, read at a row -/

theorem tile_row (v0 v1 v2 : Vec Ideal S256x2048 .f32) (v30 : Vec Ideal S2048x2048 .bf16) (v33 : Vec Ideal S8x2048 .bf16)
    (v40 : Vec Ideal S2048x1024 .bf16) (v43 v49 : Vec Ideal S1x1024 .f32) (v55 : Vec Ideal S1x1 .f32) (y : Fin 256) :
    k0_pay1 (F := Ideal) (k0_pay2 (F := Ideal) v0 v1 v2 v30 v33) (k0_pay3 (F := Ideal)) v40 v43 v49 v55 (ix2 y (0 : Fin 1))
      = Cert.HeadSpec.Gk (fun k => v0 (ix2 y k)) (fun k => v1 (ix2 y k)) (fun k => v2 (ix2 y k))
          (fun k c => v30 (ix2 k c)) (fun j c => v33 (ix2 j c)) (fun k j => v40 (ix2 k j))
          (fun j => v43 (ix2 (0 : Fin 1) j)) (fun j => v49 (ix2 (0 : Fin 1) j)) (v55 (ix2 (0 : Fin 1) (0 : Fin 1))) := by
  refine (second_at (k0_pay2 (F := Ideal) v0 v1 v2 v30 v33) v40 v43 v49 v55 y).trans ?_
  refine congrArg (fun h : Fin 2048 → EReal => Cert.HeadSpec.out h (fun k j => v40 (ix2 k j))
    (fun j => v43 (ix2 (0 : Fin 1) j)) (fun j => v49 (ix2 (0 : Fin 1) j)) (v55 (ix2 (0 : Fin 1) (0 : Fin 1)))) ?_
  funext c
  exact congrArg (fun s => max s Cert.RowBias.zf) (first_at v0 v1 v2 v30 v33 y c)

end Cert.TileHead
end
-- ==== Proof.HeadWhole.lean ====
/-
  FROM THE 64 TILES TO THE WHOLE RESULT, at the ideal values.

  Tile `t` of the region stages rows `256·t … 256·t + 255` of h, v_claim and v_doc, the six prepared arrays whole, and writes
  back the 256 × 1 output tile at rows `256·t …` of the result.  The body's value at row `y` of the tile depends on row `y` of
  each row window and on the prepared arrays only (the split head, `Gk`), and the prepared arrays are the top of W1, the
  8-row block, W2, b2, Wr and br, so that value is the head `G` of row `256·t + y` of the launch arrays.  The 64 tiles
  cover the 16384 rows, each row in tile `row / 256`; hence after the run row `p` of the result is `G` of row `p`.
-/
import proofs.«179185_j83528523973131_2_alg».proof.Proof.HeadLaunchIdeal
import proofs.«179185_j83528523973131_2_alg».proof.Proof.HeadPrepared
import proofs.«179185_j83528523973131_2_alg».proof.Proof.TileHead
import Idealize.ShloMosaic.Lib.Pipeline.Value

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Prepared

variable (m : (ℓ : Loc nD τ sig) → Buf (Elt Ideal) ℓ) (ρ : Dev nD → PrngReg)

abbrev aH (c : Dev nD) : S16384x2048.Idx → EReal := m ((c : Thread nD τ).loc main_arg0)
abbrev aC (c : Dev nD) : S16384x2048.Idx → EReal := m ((c : Thread nD τ).loc main_arg1)
abbrev aD (c : Dev nD) : S16384x2048.Idx → EReal := m ((c : Thread nD τ).loc main_arg2)

/-- The head of row `p` of the launch arrays. -/
def headRow (c : Dev nD) (p : Fin 16384) : EReal :=
  Cert.HeadSpec.G (fun k => aH m c (ix2 p k)) (fun k => aC m c (ix2 p k)) (fun k => aD m c (ix2 p k))
    (fun a b => aW1 m c (ix2 a b)) (fun b => ab1 m c (ix1 b)) (fun a b => aW2 m c (ix2 a b)) (fun b => ab2 m c (ix1 b))
    (fun b => aWr m c (ix2 b (0 : Fin 1))) (abr m c (ix1 (0 : Fin 1)))

/-- The result array: row `p` holds the head of row `p`. -/
def result (c : Dev nD) : S16384x1.Idx → EReal := fun i => headRow m c (idxEquiv2 (n0 := 16384) (n1 := 1) i).1

theorem result_apply (c : Dev nD) (p : Fin 16384) : result m c (ix2 p (0 : Fin 1)) = headRow m c p := rfl

theorem hz : (![0, 0] : Fin 2 → Nat) = fun _ => 0 := funext fun a => by fin_cases a <;> rfl

/-- Where each window's block sits at tile `t`, decided over the 64 tiles: the three row windows and the output at block row
    `t`, the six prepared arrays at their one block. -/
theorem where_blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 64 := lt_of_lt_of_eq t.isLt N_0

/-- The row of the whole arrays that row `y` of tile `t` is. -/
def rowOf (t : Fin cfg0.N) (y : Fin 256) : Fin 16384 := ⟨256 * t.val + y.val, by have := t_lt t; have := y.isLt; omega⟩

/-! ## Each window's tile, read at an index -/

theorem tile0_apply (c : Dev nD) (t : Fin cfg0.N) (y : Fin 256) (k : Fin 2048) :
    (tile m c 0 t : S256x2048.Idx → EReal) (ix2 y k) = aH m c (ix2 (rowOf t y) k) := by
  show entry m c main_arg0 (((cfg0.win 0).blk t).view.emb (ix2 y k)) = _
  rw [entry_arg0]
  refine congrArg (aH m c) (funext fun a => Fin.ext ?_)
  obtain ⟨e, e', -⟩ := where_blocks t
  match a with
  | ⟨0, _⟩ => show win0_0.index t (0 : Fin 2) * 256 + 1 * y.val = 256 * t.val + y.val; omega
  | ⟨1, _⟩ => show win0_0.index t (1 : Fin 2) * 2048 + 1 * k.val = k.val; omega

theorem tile1_apply (c : Dev nD) (t : Fin cfg0.N) (y : Fin 256) (k : Fin 2048) :
    (tile m c 1 t : S256x2048.Idx → EReal) (ix2 y k) = aC m c (ix2 (rowOf t y) k) := by
  show entry m c main_arg1 (((cfg0.win 1).blk t).view.emb (ix2 y k)) = _
  rw [entry_arg1]
  refine congrArg (aC m c) (funext fun a => Fin.ext ?_)
  obtain ⟨-, -, e, e', -⟩ := where_blocks t
  match a with
  | ⟨0, _⟩ => show win0_1.index t (0 : Fin 2) * 256 + 1 * y.val = 256 * t.val + y.val; omega
  | ⟨1, _⟩ => show win0_1.index t (1 : Fin 2) * 2048 + 1 * k.val = k.val; omega

theorem tile2_apply (c : Dev nD) (t : Fin cfg0.N) (y : Fin 256) (k : Fin 2048) :
    (tile m c 2 t : S256x2048.Idx → EReal) (ix2 y k) = aD m c (ix2 (rowOf t y) k) := by
  show entry m c main_arg2 (((cfg0.win 2).blk t).view.emb (ix2 y k)) = _
  rw [entry_arg2]
  refine congrArg (aD m c) (funext fun a => Fin.ext ?_)
  obtain ⟨-, -, -, -, e, e', -⟩ := where_blocks t
  match a with
  | ⟨0, _⟩ => show win0_2.index t (0 : Fin 2) * 256 + 1 * y.val = 256 * t.val + y.val; omega
  | ⟨1, _⟩ => show win0_2.index t (1 : Fin 2) * 2048 + 1 * k.val = k.val; omega

theorem tile3_apply (c : Dev nD) (t : Fin cfg0.N) (a b : Fin 2048) :
    (tile m c 3 t : S2048x2048.Idx → EReal) (ix2 a b) = (entry m c main_v1 : S2048x2048.Idx → EReal) (ix2 a b) := by
  show (entry m c main_v1 : S2048x2048.Idx → EReal) (((cfg0.win 3).blk t).view.emb (ix2 a b)) = _
  refine congrArg (entry m c main_v1 : S2048x2048.Idx → EReal) (funext fun ax => Fin.ext ?_)
  obtain ⟨-, -, -, -, -, -, e, e', -⟩ := where_blocks t
  match ax with
  | ⟨0, _⟩ => show win0_3.index t (0 : Fin 2) * 2048 + 1 * a.val = a.val; omega
  | ⟨1, _⟩ => show win0_3.index t (1 : Fin 2) * 2048 + 1 * b.val = b.val; omega

theorem tile4_apply (c : Dev nD) (t : Fin cfg0.N) (a : Fin 8) (b : Fin 2048) :
    (tile m c 4 t : S8x2048.Idx → EReal) (ix2 a b) = (entry m c main_v6 : S8x2048.Idx → EReal) (ix2 a b) := by
  show (entry m c main_v6 : S8x2048.Idx → EReal) (((cfg0.win 4).blk t).view.emb (ix2 a b)) = _
  refine congrArg (entry m c main_v6 : S8x2048.Idx → EReal) (funext fun ax => Fin.ext ?_)
  obtain ⟨-, -, -, -, -, -, -, -, e, e', -⟩ := where_blocks t
  match ax with
  | ⟨0, _⟩ => show win0_4.index t (0 : Fin 2) * 8 + 1 * a.val = a.val; omega
  | ⟨1, _⟩ => show win0_4.index t (1 : Fin 2) * 2048 + 1 * b.val = b.val; omega

theorem tile5_apply (c : Dev nD) (t : Fin cfg0.N) (a : Fin 2048) (b : Fin 1024) :
    (tile m c 5 t : S2048x1024.Idx → EReal) (ix2 a b) = (entry m c main_v7 : S2048x1024.Idx → EReal) (ix2 a b) := by
  show (entry m c main_v7 : S2048x1024.Idx → EReal) (((cfg0.win 5).blk t).view.emb (ix2 a b)) = _
  refine congrArg (entry m c main_v7 : S2048x1024.Idx → EReal) (funext fun ax => Fin.ext ?_)
  obtain ⟨-, -, -, -, -, -, -, -, -, -, e, e', -⟩ := where_blocks t
  match ax with
  | ⟨0, _⟩ => show win0_5.index t (0 : Fin 2) * 2048 + 1 * a.val = a.val; omega
  | ⟨1, _⟩ => show win0_5.index t (1 : Fin 2) * 1024 + 1 * b.val = b.val; omega

theorem tile6_apply (c : Dev nD) (t : Fin cfg0.N) (a : Fin 1) (b : Fin 1024) :
    (tile m c 6 t : S1x1024.Idx → EReal) (ix2 a b) = (entry m c main_v8 : S1x1024.Idx → EReal) (ix2 a b) := by
  show (entry m c main_v8 : S1x1024.Idx → EReal) (((cfg0.win 6).blk t).view.emb (ix2 a b)) = _
  refine congrArg (entry m c main_v8 : S1x1024.Idx → EReal) (funext fun ax => Fin.ext ?_)
  obtain ⟨-, -, -, -, -, -, -, -, -, -, -, -, e, e', -⟩ := where_blocks t
  match ax with
  | ⟨0, _⟩ => show win0_6.index t (0 : Fin 2) * 1 + 1 * a.val = a.val; omega
  | ⟨1, _⟩ => show win0_6.index t (1 : Fin 2) * 1024 + 1 * b.val = b.val; omega

theorem tile7_apply (c : Dev nD) (t : Fin cfg0.N) (a : Fin 1) (b : Fin 1024) :
    (tile m c 7 t : S1x1024.Idx → EReal) (ix2 a b) = (entry m c main_v9 : S1x1024.Idx → EReal) (ix2 a b) := by
  show (entry m c main_v9 : S1x1024.Idx → EReal) (((cfg0.win 7).blk t).view.emb (ix2 a b)) = _
  refine congrArg (entry m c main_v9 : S1x1024.Idx → EReal) (funext fun ax => Fin.ext ?_)
  obtain ⟨-, -, -, -, -, -, -, -, -, -, -, -, -, -, e, e', -⟩ := where_blocks t
  match ax with
  | ⟨0, _⟩ => show win0_7.index t (0 : Fin 2) * 1 + 1 * a.val = a.val; omega
  | ⟨1, _⟩ => show win0_7.index t (1 : Fin 2) * 1024 + 1 * b.val = b.val; omega

theorem tile8_apply (c : Dev nD) (t : Fin cfg0.N) (a b : Fin 1) :
    (tile m c 8 t : S1x1.Idx → EReal) (ix2 a b) = (entry m c main_v10 : S1x1.Idx → EReal) (ix2 a b) := by
  show (entry m c main_v10 : S1x1.Idx → EReal) (((cfg0.win 8).blk t).view.emb (ix2 a b)) = _
  refine congrArg (entry m c main_v10 : S1x1.Idx → EReal) (funext fun ax => Fin.ext ?_)
  obtain ⟨-, -, -, -, -, -, -, -, -, -, -, -, -, -, -, -, e, e', -⟩ := where_blocks t
  match ax with
  | ⟨0, _⟩ => show win0_8.index t (0 : Fin 2) * 1 + 1 * a.val = a.val; omega
  | ⟨1, _⟩ => show win0_8.index t (1 : Fin 2) * 1 + 1 * b.val = b.val; omega

/-! ## What a tile writes back -/

/-- The body's value at row `y` of tile `t` is the head of row `256·t + y`. -/
theorem body_row (c : Dev nD) (t : Fin cfg0.N) (y : Fin 256) :
    k0_pay1 (F := Ideal) (k0_pay2 (F := Ideal) (tile m c 0 t) (tile m c 1 t) (tile m c 2 t) (tile m c 3 t) (tile m c 4 t))
        (k0_pay3 (F := Ideal)) (tile m c 5 t) (tile m c 6 t) (tile m c 7 t) (tile m c 8 t) (ix2 y (0 : Fin 1))
      = headRow m c (rowOf t y) := by
  refine (Cert.TileHead.tile_row (tile m c 0 t) (tile m c 1 t) (tile m c 2 t) (tile m c 3 t) (tile m c 4 t) (tile m c 5 t)
    (tile m c 6 t) (tile m c 7 t) (tile m c 8 t) y).trans ?_
  unfold headRow
  rw [← Cert.HeadSpec.Gk_eq]
  have h0 : (fun k => (tile m c 0 t : S256x2048.Idx → EReal) (ix2 y k)) = fun k => aH m c (ix2 (rowOf t y) k) :=
    funext fun k => tile0_apply m c t y k
  have h1 : (fun k => (tile m c 1 t : S256x2048.Idx → EReal) (ix2 y k)) = fun k => aC m c (ix2 (rowOf t y) k) :=
    funext fun k => tile1_apply m c t y k
  have h2 : (fun k => (tile m c 2 t : S256x2048.Idx → EReal) (ix2 y k)) = fun k => aD m c (ix2 (rowOf t y) k) :=
    funext fun k => tile2_apply m c t y k
  have h3 : (fun a b => (tile m c 3 t : S2048x2048.Idx → EReal) (ix2 a b)) = Cert.HeadSpec.top (fun a b => aW1 m c (ix2 a b)) :=
    funext fun a => funext fun b => (tile3_apply m c t a b).trans (top_apply m c a b)
  have h4 : (fun a b => (tile m c 4 t : S8x2048.Idx → EReal) (ix2 a b))
      = Cert.HeadSpec.block8 (fun a b => aW1 m c (ix2 a b)) (fun b => ab1 m c (ix1 b)) :=
    funext fun a => funext fun b => (tile4_apply m c t a b).trans (block_apply m c a b)
  have h5 : (fun a b => (tile m c 5 t : S2048x1024.Idx → EReal) (ix2 a b)) = fun a b => aW2 m c (ix2 a b) :=
    funext fun a => funext fun b => (tile5_apply m c t a b).trans (congrFun (w2_eq m c) (ix2 a b))
  have h6 : (fun b => (tile m c 6 t : S1x1024.Idx → EReal) (ix2 (0 : Fin 1) b)) = fun b => ab2 m c (ix1 b) :=
    funext fun b => (tile6_apply m c t 0 b).trans (b2_apply m c b)
  have h7 : (fun b => (tile m c 7 t : S1x1024.Idx → EReal) (ix2 (0 : Fin 1) b)) = fun b => aWr m c (ix2 b (0 : Fin 1)) :=
    funext fun b => (tile7_apply m c t 0 b).trans (wr_apply m c b)
  have h8 : (tile m c 8 t : S1x1.Idx → EReal) (ix2 (0 : Fin 1) (0 : Fin 1)) = abr m c (ix1 (0 : Fin 1)) :=
    (tile8_apply m c t 0 0).trans (br_apply m c)
  exact (congrArg (fun f => Cert.HeadSpec.Gk f _ _ _ _ _ _ _ _) h0).trans <|
    (congrArg (fun f => Cert.HeadSpec.Gk _ f _ _ _ _ _ _ _) h1).trans <|
    (congrArg (fun f => Cert.HeadSpec.Gk _ _ f _ _ _ _ _ _) h2).trans <|
    (congrArg (fun f => Cert.HeadSpec.Gk _ _ _ f _ _ _ _ _) h3).trans <|
    (congrArg (fun f => Cert.HeadSpec.Gk _ _ _ _ f _ _ _ _) h4).trans <|
    (congrArg (fun f => Cert.HeadSpec.Gk _ _ _ _ _ f _ _ _) h5).trans <|
    (congrArg (fun f => Cert.HeadSpec.Gk _ _ _ _ _ _ f _ _) h6).trans <|
    (congrArg (fun f => Cert.HeadSpec.Gk _ _ _ _ _ _ _ f _) h7).trans <|
    (congrArg (fun f => Cert.HeadSpec.Gk _ _ _ _ _ _ _ _ f) h8)

/-- What tile `t` writes back is block `t` of the result. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after_9]
  unfold headOut hiddenPre
  rw [View.canon_unit_zero hz]
  simp only [View.ld_unit_zero (S := S256x2048) hz, View.ld_unit_zero (S := S2048x2048) hz, View.ld_unit_zero (S := S8x2048) hz,
    View.ld_unit_zero (S := S2048x1024) hz, View.ld_unit_zero (S := S1x1024) hz, View.ld_unit_zero (S := S1x1) hz]
  funext j
  obtain ⟨y, u, rfl⟩ : ∃ (y : Fin 256) (u : Fin 1), j = ix2 y u := ⟨j 0, j 1, eq_ix2 j⟩
  obtain rfl : u = 0 := Subsingleton.elim _ _
  show k0_pay1 (F := Ideal) (k0_pay2 (F := Ideal) (tile m c 0 t) (tile m c 1 t) (tile m c 2 t) (tile m c 3 t) (tile m c 4 t))
        (k0_pay3 (F := Ideal)) (tile m c 5 t) (tile m c 6 t) (tile m c 7 t) (tile m c 8 t) (ix2 y (0 : Fin 1))
      = result m c (((cfg0.win 9).blk t).view.emb (ix2 y (0 : Fin 1)))
  rw [body_row]
  have he : ((cfg0.win 9).blk t).view.emb (ix2 y (0 : Fin 1)) = ix2 (rowOf t y) (0 : Fin 1) := by
    funext a; apply Fin.ext
    obtain ⟨-, -, -, -, -, -, -, -, -, -, -, -, -, -, -, -, -, -, e, e'⟩ := where_blocks t
    match a with
    | ⟨0, _⟩ => show win0_9.index t (0 : Fin 2) * 256 + 1 * y.val = 256 * t.val + y.val; omega
    | ⟨1, _⟩ => show win0_9.index t (1 : Fin 2) * 1 + 1 * 0 = 0; omega
  rw [he, result_apply]

/-- An index of the result is in tile `t`'s block iff each coordinate is in the block's range. -/
theorem mem_blk (t : Fin cfg0.N) (i : S16384x1.Idx) :
    i ∈ ((cfg0.win 9).blk t).view.set ↔ ∀ a : Fin 2, win0_9.index t a * S256x1.size a ≤ (i a).val ∧ (i a).val < win0_9.index t a * S256x1.size a + S256x1.size a := by
  show i ∈ ((View.whole main_v11).slice (win0_9.rect t)).set ↔ _
  rw [View.set_slice_whole, Rect.mem_set_unit]
  exact Iff.rfl

/-- Every row of the result is in the block of tile `row / 256`. -/
theorem cover (i : S16384x1.Idx) : ∃ t : Fin cfg0.N, (cfg0.win 9).flush t = true ∧ i ∈ ((cfg0.win 9).blk t).view.set := by
  have hi0 : (i 0).val < 16384 := (i 0).isLt
  have hi1 : (i 1).val < 1 := (i 1).isLt
  refine ⟨⟨(i 0).val / 256, by rw [show cfg0.N = 64 from N_0]; omega⟩, flush0_9 _, ?_⟩
  rw [mem_blk]
  obtain ⟨-, -, -, -, -, -, -, -, -, -, -, -, -, -, -, -, -, -, e, e'⟩ := where_blocks ⟨(i 0).val / 256, by rw [show cfg0.N = 64 from N_0]; omega⟩
  intro a
  match a with
  | ⟨0, _⟩ =>
    show win0_9.index _ (0 : Fin 2) * 256 ≤ (i 0).val ∧ (i 0).val < win0_9.index _ (0 : Fin 2) * 256 + 256
    rw [e]; show (i 0).val / 256 * 256 ≤ (i 0).val ∧ (i 0).val < (i 0).val / 256 * 256 + 256
    omega
  | ⟨1, _⟩ =>
    show win0_9.index _ (1 : Fin 2) * 1 ≤ (i 1).val ∧ (i 1).val < win0_9.index _ (1 : Fin 2) * 1 + 1
    rw [e']; omega

/-- The result array after the run. -/
theorem final (c : Dev nD) : (dats m 0 c).arrAt 9 cfg0.N = result m c :=
  (dats m 0 c).arrAt_eq_of_cover 9 (result m c) (fun t _ => flushed_eq m c t) cover

/-- The run, read: the result array holds the head of every row, and the nine arguments are unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 9).trans (final m c),
      ((h c).1 0).trans (((dats m 0 c).arrAt_in 0 rfl _).trans ((A_eq m c 0).trans (entry_arg0 m c))),
      ((h c).1 1).trans (((dats m 0 c).arrAt_in 1 rfl _).trans ((A_eq m c 1).trans (entry_arg1 m c))),
      ((h c).1 2).trans (((dats m 0 c).arrAt_in 2 rfl _).trans ((A_eq m c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c)⟩)
    (run_main m ρ)

end Cert.KernelIdeal.Whole

end
-- ==== Proof.RefHead.lean ====
/-
  THE REFERENCE'S RESULT READ AT A ROW, at the extended reals.

  The reference computes, for every row `p` of its three `[16384, 2048]` arguments, the retrieval head of HeadSpec on
  that row: entry `(p, 0)` of its result depends on row `p` of `h`, `v_claim`, `v_doc` and on the weights, and on
  nothing else.  The stages, each read at an index with explicit coordinates:
  • the clamped length of a row: the square root of the sum of squares (a float sum is its zero initial word, which is
    the extended real zero, plus the plain sum), then the larger of it and the clamp word (`len_claim`, `len_doc`);
  • the direction: each entry divided by that length, which is broadcast along the row (`dir_claim`, `dir_doc`);
  • the cosine `∑ k, dir vc k · dir vd k`, one minus it, and the square of that (`align_at`, `diverge_at`, `tension_at`);
  • the join of `h` with the three features along the columns: entry `(p, k)` is `h (p, k)` for `k < 2048` and the
    features at `k = 2048, 2049, 2050`, that is the two rows side by side (`join_at`);
  • a dense layer (a contraction of the joined row with the weight's rows plus the bias broadcast over the rows) and the
    rectifier, twice (`hidden_at`, `shared_at`);
  • the product with the weight column plus the bias (`logit_at`), and `1 / (1 + e^(-y))`, the logistic function
    (`ref_row`).
  No sum is regrouped and nothing needs to be finite.
-/
import proofs.«179185_j83528523973131_2_alg».proof.Proof.Gen.ReferenceIdeal.Read
import proofs.«179185_j83528523973131_2_alg».proof.Proof.HeadSpec
import proofs.«179185_j83528523973131_2_alg».proof.Proof.LibSigmoid

noncomputable section

open scoped BigOperators

namespace Cert.RefHead

open Idealize.ShloMosaic Idealize.ShloMosaic.ValueIdx Cert.ReferenceIdeal Cert.ReferenceIdeal.Read Cert.HeadSpec Cert.DenseRow Cert.RowBias

/-! ## The clamped length of a row -/

theorem len_claim (x1 : FVec Ideal S16384x2048 .f32) (p : Fin 16384) :
    val_main_v2 (F := Ideal) x1 (ix2 p (0 : Fin 1)) = len (fun k => x1 (ix2 p k)) := by
  have e : ∀ k : Fin 2048, idx_main_call0_v1 (idx_main_call0_v2 (ix2 p (0 : Fin 1))) k = ix2 p k := fun k =>
    funext fun a => Fin.ext (by match a with | ⟨0, _⟩ => rfl | ⟨1, _⟩ => rfl)
  rw [val_main_v2_apply, val_main_v0_apply, val_main_call0_v2_apply, val_main_call0_v1_apply, val_main_v1_apply,
    val_main_cst_apply, val_main_call0_cst_apply]
  simp only [val_main_call0_v0_apply, e]
  unfold len eps
  simp only [Ideal.maximumf_def, Ideal.hostUnary_sqrt_def, Ideal.ofBits_def, Ideal.mulf_def, Ideal.ofBits_zero_f32, zero_add]

theorem len_doc (x2 : FVec Ideal S16384x2048 .f32) (p : Fin 16384) :
    val_main_v7 (F := Ideal) x2 (ix2 p (0 : Fin 1)) = len (fun k => x2 (ix2 p k)) := by
  have e : ∀ k : Fin 2048, idx_main_call1_v1 (idx_main_call1_v2 (ix2 p (0 : Fin 1))) k = ix2 p k := fun k =>
    funext fun a => Fin.ext (by match a with | ⟨0, _⟩ => rfl | ⟨1, _⟩ => rfl)
  rw [val_main_v7_apply, val_main_v5_apply, val_main_call1_v2_apply, val_main_call1_v1_apply, val_main_v6_apply,
    val_main_cst_0_apply, val_main_call1_cst_apply]
  simp only [val_main_call1_v0_apply, e]
  unfold len eps
  simp only [Ideal.maximumf_def, Ideal.hostUnary_sqrt_def, Ideal.ofBits_def, Ideal.mulf_def, Ideal.ofBits_zero_f32, zero_add]

/-! ## The direction of a row -/

theorem dir_claim (x1 : FVec Ideal S16384x2048 .f32) (p : Fin 16384) (k : Fin 2048) :
    val_main_v4 (F := Ideal) x1 (ix2 p k) = dir (fun k => x1 (ix2 p k)) k := by
  have e : idx_main_v3 (ix2 p k) = ix2 p (0 : Fin 1) :=
    funext fun a => Fin.ext (by match a with | ⟨0, _⟩ => rfl | ⟨1, _⟩ => rfl)
  rw [val_main_v4_apply, val_main_v3_apply, e, len_claim]
  rfl

theorem dir_doc (x2 : FVec Ideal S16384x2048 .f32) (p : Fin 16384) (k : Fin 2048) :
    val_main_v9 (F := Ideal) x2 (ix2 p k) = dir (fun k => x2 (ix2 p k)) k := by
  have e : idx_main_v8 (ix2 p k) = ix2 p (0 : Fin 1) :=
    funext fun a => Fin.ext (by match a with | ⟨0, _⟩ => rfl | ⟨1, _⟩ => rfl)
  rw [val_main_v9_apply, val_main_v8_apply, e, len_doc]
  rfl

/-! ## The cosine and the two features derived from it -/

theorem align_at (x1 x2 : FVec Ideal S16384x2048 .f32) (p : Fin 16384) :
    val_main_v12 (F := Ideal) x1 x2 (ix2 p (0 : Fin 1)) = align (fun k => x1 (ix2 p k)) (fun k => x2 (ix2 p k)) := by
  have e : ∀ k : Fin 2048, idx_main_v11 (idx_main_v12 (ix2 p (0 : Fin 1))) k = ix2 p k := fun k =>
    funext fun a => Fin.ext (by match a with | ⟨0, _⟩ => rfl | ⟨1, _⟩ => rfl)
  rw [val_main_v12_apply, val_main_v11_apply, val_main_cst_1_apply]
  simp only [val_main_v10_apply, e, dir_claim, dir_doc]
  unfold align
  simp only [Ideal.ofBits_def, Ideal.mulf_def, Ideal.ofBits_zero_f32, zero_add]

theorem diverge_at (x1 x2 : FVec Ideal S16384x2048 .f32) (p : Fin 16384) :
    val_main_v14 (F := Ideal) x1 x2 (ix2 p (0 : Fin 1)) = diverge (fun k => x1 (ix2 p k)) (fun k => x2 (ix2 p k)) := by
  rw [val_main_v14_apply, val_main_v13_apply, val_main_cst_2_apply, align_at]
  rfl

theorem tension_at (x1 x2 : FVec Ideal S16384x2048 .f32) (p : Fin 16384) :
    val_main_v15 (F := Ideal) x1 x2 (ix2 p (0 : Fin 1)) = tension (fun k => x1 (ix2 p k)) (fun k => x2 (ix2 p k)) := by
  rw [val_main_v15_apply, diverge_at]
  rfl

/-! ## The join read at a row

The four pieces are joined along the columns: entry `(p, k)` is row `p` of the first piece for `k < 2048`, and the one
entry of row `p` of the second, third and fourth piece at `k = 2048, 2049, 2050`. -/

theorem join_at (x0 x1 x2 : FVec Ideal S16384x2048 .f32) (p : Fin 16384) (k : Fin 2051) :
    val_main_v16 (F := Ideal) x0 x1 x2 (ix2 p k)
      = cat (A := 2048) (B := 3) (C := 2051) rfl (fun a => x0 (ix2 p a))
          (feats (fun k => x1 (ix2 p k)) (fun k => x2 (ix2 p k))) k := by
  unfold val_main_v16 cat
  by_cases hk : k.val < 2048
  · rw [dif_pos hk]
    refine concatenate_apply_piece (t := S16384x2051) 1 [⟨S16384x2048, x0⟩, ⟨S16384x1, val_main_v12 (F := Ideal) x1 x2⟩, ⟨S16384x1, val_main_v14 (F := Ideal) x1 x2⟩, ⟨S16384x1, val_main_v15 (F := Ideal) x1 x2⟩] _ (ix2 p k) 0 (by show (0 : ℕ) < 4; decide)
      S16384x2048 x0 rfl rfl 0 rfl (ix2 p ⟨k.val, hk⟩) (fun b hb => ?_) (Nat.zero_add _)
    match b with
    | ⟨0, _⟩ => rfl
    | ⟨1, _⟩ => exact absurd rfl hb
  · rw [dif_neg hk]
    have hk3 := k.isLt
    rcases (by omega : k.val = 2048 ∨ k.val = 2049 ∨ k.val = 2050) with h | h | h
    · obtain rfl : k = ⟨2048, by decide⟩ := Fin.ext h
      refine (concatenate_apply_piece (t := S16384x2051) 1 [⟨S16384x2048, x0⟩, ⟨S16384x1, val_main_v12 (F := Ideal) x1 x2⟩, ⟨S16384x1, val_main_v14 (F := Ideal) x1 x2⟩, ⟨S16384x1, val_main_v15 (F := Ideal) x1 x2⟩] _ (ix2 p (⟨2048, by decide⟩ : Fin 2051)) 1
        (by show (1 : ℕ) < 4; decide) S16384x1 (val_main_v12 (F := Ideal) x1 x2) rfl rfl 2048 rfl (ix2 p (0 : Fin 1))
        (fun b hb => ?_) rfl).trans ?_
      · match b with
        | ⟨0, _⟩ => rfl
        | ⟨1, _⟩ => exact absurd rfl hb
      · rw [align_at]; rfl
    · obtain rfl : k = ⟨2049, by decide⟩ := Fin.ext h
      refine (concatenate_apply_piece (t := S16384x2051) 1 [⟨S16384x2048, x0⟩, ⟨S16384x1, val_main_v12 (F := Ideal) x1 x2⟩, ⟨S16384x1, val_main_v14 (F := Ideal) x1 x2⟩, ⟨S16384x1, val_main_v15 (F := Ideal) x1 x2⟩] _ (ix2 p (⟨2049, by decide⟩ : Fin 2051)) 2
        (by show (2 : ℕ) < 4; decide) S16384x1 (val_main_v14 (F := Ideal) x1 x2) rfl rfl 2049 rfl (ix2 p (0 : Fin 1))
        (fun b hb => ?_) rfl).trans ?_
      · match b with
        | ⟨0, _⟩ => rfl
        | ⟨1, _⟩ => exact absurd rfl hb
      · rw [diverge_at]; rfl
    · obtain rfl : k = ⟨2050, by decide⟩ := Fin.ext h
      refine (concatenate_apply_piece (t := S16384x2051) 1 [⟨S16384x2048, x0⟩, ⟨S16384x1, val_main_v12 (F := Ideal) x1 x2⟩, ⟨S16384x1, val_main_v14 (F := Ideal) x1 x2⟩, ⟨S16384x1, val_main_v15 (F := Ideal) x1 x2⟩] _ (ix2 p (⟨2050, by decide⟩ : Fin 2051)) 3
        (by show (3 : ℕ) < 4; decide) S16384x1 (val_main_v15 (F := Ideal) x1 x2) rfl rfl 2050 rfl (ix2 p (0 : Fin 1))
        (fun b hb => ?_) rfl).trans ?_
      · match b with
        | ⟨0, _⟩ => rfl
        | ⟨1, _⟩ => exact absurd rfl hb
      · rw [tension_at]; rfl

/-! ## The two dense layers with their rectifiers -/

theorem hidden_at (x0 x1 x2 : FVec Ideal S16384x2048 .f32) (x3 : FVec Ideal S2051x2048 .f32) (x4 : FVec Ideal S2048 .f32)
    (p : Fin 16384) (c : Fin 2048) :
    val_main_v21 (F := Ideal) x0 x1 x2 x3 x4 (ix2 p c)
      = hiddenJoined (fun k => x0 (ix2 p k)) (fun k => x1 (ix2 p k)) (fun k => x2 (ix2 p k))
          (fun k c => x3 (ix2 k c)) (fun c => x4 (ix1 c)) c := by
  have el : ∀ k : Fin 2051, lidx_main_v17 (ix2 p c) k = ix2 p k := fun k =>
    funext fun a => Fin.ext (by match a with | ⟨0, _⟩ => rfl | ⟨1, _⟩ => rfl)
  have er : ∀ k : Fin 2051, ridx_main_v17 (ix2 p c) k = ix2 k c := fun k =>
    funext fun a => Fin.ext (by match a with | ⟨0, _⟩ => rfl | ⟨1, _⟩ => rfl)
  have eb : idx_main_v18 (idx_main_v19 (ix2 p c)) = ix1 c :=
    funext fun a => Fin.ext (by match a with | ⟨0, _⟩ => rfl)
  rw [val_main_v21_apply, val_main_v20_apply, val_main_v17_apply, val_main_v19_apply, val_main_v18_apply,
    val_main_call2_v0_apply, val_main_call2_cst_apply, eb]
  simp only [el, er, join_at]
  rfl

theorem shared_at (x0 x1 x2 : FVec Ideal S16384x2048 .f32) (x3 : FVec Ideal S2051x2048 .f32) (x4 : FVec Ideal S2048 .f32)
    (x5 : FVec Ideal S2048x1024 .f32) (x6 : FVec Ideal S1024 .f32) (p : Fin 16384) (j : Fin 1024) :
    val_main_v26 (F := Ideal) x0 x1 x2 x3 x4 x5 x6 (ix2 p j)
      = act zf (layer (hiddenJoined (fun k => x0 (ix2 p k)) (fun k => x1 (ix2 p k)) (fun k => x2 (ix2 p k))
          (fun k c => x3 (ix2 k c)) (fun c => x4 (ix1 c))) (fun k j => x5 (ix2 k j)) (fun j => x6 (ix1 j))) j := by
  have el : ∀ k : Fin 2048, lidx_main_v22 (ix2 p j) k = ix2 p k := fun k =>
    funext fun a => Fin.ext (by match a with | ⟨0, _⟩ => rfl | ⟨1, _⟩ => rfl)
  have er : ∀ k : Fin 2048, ridx_main_v22 (ix2 p j) k = ix2 k j := fun k =>
    funext fun a => Fin.ext (by match a with | ⟨0, _⟩ => rfl | ⟨1, _⟩ => rfl)
  have eb : idx_main_v23 (idx_main_v24 (ix2 p j)) = ix1 j :=
    funext fun a => Fin.ext (by match a with | ⟨0, _⟩ => rfl)
  rw [val_main_v26_apply, val_main_v25_apply, val_main_v22_apply, val_main_v24_apply, val_main_v23_apply,
    val_main_call3_v0_apply, val_main_call3_cst_apply, eb]
  simp only [el, er, hidden_at]
  rfl

/-! ## The head: the product with the weight column plus the bias, then the sigmoid -/

theorem logit_at (x0 x1 x2 : FVec Ideal S16384x2048 .f32) (x3 : FVec Ideal S2051x2048 .f32) (x4 : FVec Ideal S2048 .f32)
    (x5 : FVec Ideal S2048x1024 .f32) (x6 : FVec Ideal S1024 .f32) (x7 : FVec Ideal S1024x1 .f32) (x8 : FVec Ideal S1 .f32)
    (p : Fin 16384) :
    val_main_v30 (F := Ideal) x0 x1 x2 x3 x4 x5 x6 x7 x8 (ix2 p (0 : Fin 1))
      = (∑ j : Fin 1024, act zf (layer (hiddenJoined (fun k => x0 (ix2 p k)) (fun k => x1 (ix2 p k)) (fun k => x2 (ix2 p k))
          (fun k c => x3 (ix2 k c)) (fun c => x4 (ix1 c))) (fun k j => x5 (ix2 k j)) (fun j => x6 (ix1 j))) j
            * x7 (ix2 j (0 : Fin 1))) + x8 (ix1 (0 : Fin 1)) := by
  have el : ∀ k : Fin 1024, lidx_main_v27 (ix2 p (0 : Fin 1)) k = ix2 p k := fun k =>
    funext fun a => Fin.ext (by match a with | ⟨0, _⟩ => rfl | ⟨1, _⟩ => rfl)
  have er : ∀ k : Fin 1024, ridx_main_v27 (ix2 p (0 : Fin 1)) k = ix2 k (0 : Fin 1) := fun k =>
    funext fun a => Fin.ext (by match a with | ⟨0, _⟩ => rfl | ⟨1, _⟩ => rfl)
  have eb : idx_main_v28 (idx_main_v29 (ix2 p (0 : Fin 1))) = ix1 (0 : Fin 1) :=
    funext fun a => Fin.ext (by match a with | ⟨0, _⟩ => rfl)
  rw [val_main_v30_apply, val_main_v27_apply, val_main_v29_apply, val_main_v28_apply, eb]
  simp only [el, er, shared_at]
  rfl

theorem ref_row (x0 x1 x2 : FVec Ideal S16384x2048 .f32) (x3 : FVec Ideal S2051x2048 .f32) (x4 : FVec Ideal S2048 .f32)
    (x5 : FVec Ideal S2048x1024 .f32) (x6 : FVec Ideal S1024 .f32) (x7 : FVec Ideal S1024x1 .f32) (x8 : FVec Ideal S1 .f32) (p : Fin 16384) :
    Cert.ReferenceIdeal.Read.val_main_v36 (F := Ideal) x0 x1 x2 x3 x4 x5 x6 x7 x8 (ix2 p (0 : Fin 1))
      = Cert.HeadSpec.G (fun k => x0 (ix2 p k)) (fun k => x1 (ix2 p k)) (fun k => x2 (ix2 p k))
          (fun k c => x3 (ix2 k c)) (fun c => x4 (ix1 c)) (fun k j => x5 (ix2 k j)) (fun j => x6 (ix1 j))
          (fun j => x7 (ix2 j (0 : Fin 1))) (x8 (ix1 (0 : Fin 1))) :=
  Cert.Sigmoid.hlogistic_at (val_main_v30 (F := Ideal) x0 x1 x2 x3 x4 x5 x6 x7 x8) _ _ (ix2 p (0 : Fin 1)) _
    (logit_at x0 x1 x2 x3 x4 x5 x6 x7 x8 p)

end Cert.RefHead

end
-- ==== Proof.lean ====
/-
  The retrieval head — the cosine of two rows and two features of it, two dense layers with rectifiers, a sigmoid —
  computed tile by tile on the vector and matrix units against the same head computed on whole arrays.

  The three programs run to the end without a fault and leave their nine arguments unchanged: the two kernel programs
  because the region's 64 tiles each read their blocks and overwrite only the output tile, the reference because it is a
  straight line of host operations.  The idealized kernel is the kernel's own text read at the extended reals, so nothing
  is owed for it.  At the extended reals both results hold, at row `p`, the head of row `p` of the arguments: the kernel
  splits the first layer's sum of 2051 products into 2048 and 8 (three real terms, the bias as `1 · b1`, four zeros), the
  reference takes it whole, and a finite sum of extended reals may be regrouped freely.
-/
import proofs.«179185_j83528523973131_2_alg».proof.Defs
import proofs.«179185_j83528523973131_2_alg».proof.Proof.Gen.Kernel
import proofs.«179185_j83528523973131_2_alg».proof.Proof.Gen.KernelIdeal
import proofs.«179185_j83528523973131_2_alg».proof.Proof.Gen.ReferenceIdeal
import proofs.«179185_j83528523973131_2_alg».proof.Proof.Gen.Pre_finite_inputs
import proofs.«179185_j83528523973131_2_alg».proof.Proof.Gen.ReferenceIdeal.Run
import proofs.«179185_j83528523973131_2_alg».proof.Proof.Gen.ReferenceIdeal.Read
import proofs.«179185_j83528523973131_2_alg».proof.Proof.HeadLaunchWords
import proofs.«179185_j83528523973131_2_alg».proof.Proof.HeadLaunchIdeal
import proofs.«179185_j83528523973131_2_alg».proof.Proof.HeadWhole
import proofs.«179185_j83528523973131_2_alg».proof.Proof.RefHead
import Idealize.ShloMosaic.Adequacy
import Idealize.ShloMosaic.Init

noncomputable section

namespace Cert.Proof

open Idealize.ShloMosaic Idealize.ShloMosaic.ValueIdx Idealize.SL.Sem

theorem frame_words : Cert.frame_Kernel := fun m ρ _ => Cert.Kernel.Hand.frame m ρ

theorem frame_ideal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the nine arguments, both programs end with the head of every row in their result. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq]
  obtain ⟨a0, a1, a2, a3, a4, a5, a6, a7, a8⟩ := hagree c
  rw [a0, a1, a2, a3, a4, a5, a6, a7, a8]
  funext i
  obtain ⟨p, u, rfl⟩ : ∃ (p : Fin 16384) (u : Fin 1), i = ix2 p u := ⟨i 0, i 1, eq_ix2 i⟩
  obtain rfl : u = 0 := Subsingleton.elim _ _
  exact (Cert.RefHead.ref_row _ _ _ _ _ _ _ _ _ p).trans (Cert.KernelIdeal.Whole.result_apply m c p).symm

theorem claim : Cert.Claim := ⟨Cert.Kernel.Gen.facts, Cert.KernelIdeal.Gen.facts, Cert.ReferenceIdeal.Gen.facts, Cert.Pre_finite_inputs.Gen.facts,
  frame_words, frame_ideal, frame_reference, preserves, algebraic⟩

end Cert.Proof

end
